-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v130)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S4x128 : Shape := ⟨2, ![4, 128]⟩
abbrev S128x47 : Shape := ⟨2, ![128, 47]⟩
abbrev S47 : Shape := ⟨1, ![47]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S4x128 : S_.BroadcastsInDim S4x128 (![] : Fin 0 → Fin S4x128.rank)
  reducesTo_S4x128_S_d0_1 : S4x128.ReducesTo [0, 1] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part3 {F : FTy → Type} [FloatOps F] (main_v48 : IVec S_ 1) (main_v49 : FVec F S47 .f32) (main_v50 : FVec F S47 .f32) : IVec S_ 1 :=
  let main_v51 : IVec S47 1 := cmpf .olt main_v49 main_v50
  let main_c_19 : IVec S_ 1 := constantI S_ 1 1#1
  let main_v52 : IVec S_ 1 := (fun x v => Host.reduce IntOp.andi x v reducesTo_S47_S_d0 h_S_) main_v51 main_c_19
  let main_v53 : IVec S_ 1 := andi main_v48 main_v52
  main_v53

def fn_part2 {F : FTy → Type} [FloatOps F] (main_arg9 : FVec F S4x128 .f32) (main_arg10 : FVec F S4x128 .f32) (main_arg11 : FVec F S128x47 .f32) (main_arg12 : FVec F S47 .f32) (main_v33 : IVec S_ 1) : IVec S_ 1 :=
  let main_v34 : FVec F S4x128 .f32 := Host.absf main_arg9
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S4x128 .f32 := Host.absf main_arg10
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  let main_v44 : FVec F S128x47 .f32 := Host.absf main_arg11
  let main_cst_16 : FVec F S_ .f32 := constant S_ .f32 0x7F800000#32
  let main_v45 : FVec F S128x47 .f32 := broadcastInDim S128x47 ![] bcast_S_S128x47 main_cst_16
  let main_v46 : IVec S128x47 1 := cmpf .olt main_v44 main_v45
  let main_c_17 : IVec S_ 1 := constantI S_ 1 1#1
  let main_v47 : IVec S_ 1 := (fun x v => Host.reduce IntOp.andi x v reducesTo_S128x47_S_d0_1 h_S_) main_v46 main_c_17
  let main_v48 : IVec S_ 1 := andi main_v43 main_v47
  let main_v49 : FVec F S47 .f32 := Host.absf main_arg12
  let main_cst_18 : FVec F S_ .f32 := constant S_ .f32 0x7F800000#32
  let main_v50 : FVec F S47 .f32 := broadcastInDim S47 ![] bcast_S_S47 main_cst_18
  fn_part3 (F := F) main_v48 main_v49 main_v50

def fn_part1 {F : FTy → Type} [FloatOps F] (main_arg6 : FVec F S3x128 .f32) (main_arg7 : FVec F S4x128 .f32) (main_arg8 : FVec F S4x128 .f32) (main_arg9 : FVec F S4x128 .f32) (main_arg10 : FVec F S4x128 .f32) (main_arg11 : FVec F S128x47 .f32) (main_arg12 : FVec F S47 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S4x128 .f32 := Host.absf main_arg7
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S3x128x128 .f32) (main_arg6 : FVec F S3x128 .f32) (main_arg7 : FVec F S4x128 .f32) (main_arg8 : FVec F S4x128 .f32) (main_arg9 : FVec F S4x128 .f32) (main_arg10 : FVec F S4x128 .f32) (main_arg11 : FVec F S128x47 .f32) (main_arg12 : FVec F S47 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S4x128 : Shape := ⟨2, ![4, 128]⟩
abbrev S128x47 : Shape := ⟨2, ![128, 47]⟩
abbrev S47 : Shape := ⟨1, ![47]⟩
abbrev S_ : Shape := ⟨0, ![]⟩
abbrev S100000 : Shape := ⟨1, ![100000]⟩
abbrev S1600000x1 : Shape := ⟨2, ![1600000, 1]⟩
abbrev S1x128 : Shape := ⟨2, ![1, 128]⟩
abbrev S4000x128 : Shape := ⟨2, ![4000, 128]⟩
abbrev S100000x1 : Shape := ⟨2, ![100000, 1]⟩
abbrev S1600000x128 : Shape := ⟨2, ![1600000, 128]⟩
abbrev S1x128x128 : Shape := ⟨3, ![1, 128, 128]⟩
abbrev S1x47 : Shape := ⟨2, ![1, 47]⟩
abbrev S100000x47 : Shape := ⟨2, ![100000, 47]⟩
abbrev S4000x47 : Shape := ⟨2, ![4000, 47]⟩

abbrev nBuf : Space → Nat
  | .hbm => 158
  | .vmem => 46
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S3x128x128, .f32⟩
  | 6 => ⟨S3x128, .f32⟩
  | 7 => ⟨S4x128, .f32⟩
  | 8 => ⟨S4x128, .f32⟩
  | 9 => ⟨S4x128, .f32⟩
  | 10 => ⟨S4x128, .f32⟩
  | 11 => ⟨S128x47, .f32⟩
  | 12 => ⟨S47, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .f32⟩
  | 28 => ⟨S100000, .f32⟩
  | 29 => ⟨S100000, .f32⟩
  | 30 => ⟨S100000, .f32⟩
  | 31 => ⟨S1x128, .f32⟩
  | 32 => ⟨S128, .f32⟩
  | 33 => ⟨S1x128, .f32⟩
  | 34 => ⟨S128, .f32⟩
  | 35 => ⟨S1x128, .f32⟩
  | 36 => ⟨S128, .f32⟩
  | 37 => ⟨S1x128, .f32⟩
  | 38 => ⟨S128, .f32⟩
  | 39 => ⟨S1x128, .f32⟩
  | 40 => ⟨S1x128, .f32⟩
  | 41 => ⟨S1x128, .f32⟩
  | 42 => ⟨S1x128, .f32⟩
  | 43 => ⟨S1x128, .f32⟩
  | 44 => ⟨S100000x128, .f32⟩
  | 45 => ⟨S100000x1, .f32⟩
  | 46 => ⟨S100000x128, .f32⟩
  | 47 => ⟨S100000x128, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x128, .f32⟩
  | 57 => ⟨S_, .f32⟩
  | 58 => ⟨S100000x128, .f32⟩
  | 59 => ⟨S1600000x1, .i32⟩
  | 60 => ⟨S100000x128, .f32⟩
  | 61 => ⟨S100000x1, .f32⟩
  | 62 => ⟨S100000x128, .f32⟩
  | 63 => ⟨S100000x128, .f32⟩
  | 64 => ⟨S1x128x128, .f32⟩
  | 65 => ⟨S128x128, .f32⟩
  | 66 => ⟨S1x128, .f32⟩
  | 67 => ⟨S128, .f32⟩
  | 68 => ⟨S1x128, .f32⟩
  | 69 => ⟨S128, .f32⟩
  | 70 => ⟨S1x128, .f32⟩
  | 71 => ⟨S128, .f32⟩
  | 72 => ⟨S1x128, .f32⟩
  | 73 => ⟨S128, .f32⟩
  | 74 => ⟨S1x128, .f32⟩
  | 75 => ⟨S128, .f32⟩
  | 76 => ⟨S1x128, .f32⟩
  | 77 => ⟨S1x128, .f32⟩
  | 78 => ⟨S1x128, .f32⟩
  | 79 => ⟨S1x128, .f32⟩
  | 80 => ⟨S1x128, .f32⟩
  | 81 => ⟨S100000x128, .f32⟩
  | 82 => ⟨S100000x1, .f32⟩
  | 83 => ⟨S100000x128, .f32⟩
  | 84 => ⟨S100000x128, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x128, .f32⟩
  | 94 => ⟨S_, .f32⟩
  | 95 => ⟨S100000x128, .f32⟩
  | 96 => ⟨S1600000x1, .i32⟩
  | 97 => ⟨S100000x128, .f32⟩
  | 98 => ⟨S100000x1, .f32⟩
  | 99 => ⟨S100000x128, .f32⟩
  | 100 => ⟨S100000x128, .f32⟩
  | 101 => ⟨S1x128x128, .f32⟩
  | 102 => ⟨S128x128, .f32⟩
  | 103 => ⟨S1x128, .f32⟩
  | 104 => ⟨S128, .f32⟩
  | 105 => ⟨S1x128, .f32⟩
  | 106 => ⟨S128, .f32⟩
  | 107 => ⟨S1x128, .f32⟩
  | 108 => ⟨S128, .f32⟩
  | 109 => ⟨S1x128, .f32⟩
  | 110 => ⟨S128, .f32⟩
  | 111 => ⟨S1x128, .f32⟩
  | 112 => ⟨S128, .f32⟩
  | 113 => ⟨S1x128, .f32⟩
  | 114 => ⟨S1x128, .f32⟩
  | 115 => ⟨S1x128, .f32⟩
  | 116 => ⟨S1x128, .f32⟩
  | 117 => ⟨S1x128, .f32⟩
  | 118 => ⟨S100000x128, .f32⟩
  | 119 => ⟨S100000x1, .f32⟩
  | 120 => ⟨S100000x128, .f32⟩
  | 121 => ⟨S100000x128, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x128, .f32⟩

abbrev hbmTy0_1 (i : Nat) : BufTy := match i % 128 with
  | 0 => ⟨S1600000, .i32⟩
  | 1 => ⟨S1600000x1, .i32⟩
  | 2 => ⟨S1600000x128, .f32⟩
  | 3 => ⟨S_, .f32⟩
  | 4 => ⟨S100000x128, .f32⟩
  | 5 => ⟨S1600000x1, .i32⟩
  | 6 => ⟨S100000x128, .f32⟩
  | 7 => ⟨S100000x1, .f32⟩
  | 8 => ⟨S100000x128, .f32⟩
  | 9 => ⟨S100000x128, .f32⟩
  | 10 => ⟨S1x128x128, .f32⟩
  | 11 => ⟨S128x128, .f32⟩
  | 12 => ⟨S1x128, .f32⟩
  | 13 => ⟨S128, .f32⟩
  | 14 => ⟨S1x128, .f32⟩
  | 15 => ⟨S128, .f32⟩
  | 16 => ⟨S1x128, .f32⟩
  | 17 => ⟨S128, .f32⟩
  | 18 => ⟨S1x128, .f32⟩
  | 19 => ⟨S128, .f32⟩
  | 20 => ⟨S1x128, .f32⟩
  | 21 => ⟨S128, .f32⟩
  | 22 => ⟨S1x128, .f32⟩
  | 23 => ⟨S1x128, .f32⟩
  | 24 => ⟨S1x128, .f32⟩
  | 25 => ⟨S1x128, .f32⟩
  | 26 => ⟨S1x128, .f32⟩
  | 27 => ⟨S100000x128, .f32⟩
  | 28 => ⟨S1x47, .f32⟩
  | 29 => ⟨S100000x47, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S128x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S128x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S4000x128, .f32⟩
  | .local _ .vmem, ⟨39, _⟩ => ⟨S4000x128, .f32⟩
  | .local _ .vmem, ⟨40, _⟩ => ⟨S4000x128, .f32⟩
  | .local _ .vmem, ⟨41, _⟩ => ⟨S4000x128, .f32⟩
  | .local _ .vmem, ⟨42, _⟩ => ⟨S128x47, .f32⟩
  | .local _ .vmem, ⟨43, _⟩ => ⟨S1x47, .f32⟩
  | .local _ .vmem, ⟨44, _⟩ => ⟨S4000x47, .f32⟩
  | .local _ .vmem, ⟨45, _⟩ => ⟨S4000x47, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c : Ref sig .tc := ⟨.hbm, 48, rfl⟩
abbrev main_v30 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_6 : Ref sig .tc := ⟨.hbm, 85, rfl⟩
abbrev main_v64 : Ref sig .tc := ⟨.hbm, 86, rfl⟩
abbrev main_v65 : Ref sig .tc := ⟨.hbm, 87, rfl⟩
abbrev main_c_7 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_8 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_c_9 : Ref sig .tc := ⟨.hbm, 122, rfl⟩
abbrev main_v98 : Ref sig .tc := ⟨.hbm, 123, rfl⟩
abbrev main_v99 : Ref sig .tc := ⟨.hbm, 124, rfl⟩
abbrev main_c_10 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_cst_11 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg7_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg3_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem7_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem3_1 : DmaSem sig := 45

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S4000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x47 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x47 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4000x47 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  slices_S4x128_S1x128_0_0 : S4x128.Slices ![0, 0] S1x128
  shapeCasts_S1x128_S128 : S1x128.ShapeCasts S128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  slices_S4x128_S1x128_1_0 : S4x128.Slices ![1, 0] S1x128
  shapeCasts_S4000x128_S4000x128 : S4000x128.ShapeCasts S4000x128
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S4x128_S1x128_2_0 : S4x128.Slices ![2, 0] S1x128
  slices_S3x128x128_S1x128x128_2_0_0 : S3x128x128.Slices ![2, 0, 0] S1x128x128
  slices_S3x128_S1x128_2_0 : S3x128.Slices ![2, 0] S1x128
  slices_S4x128_S1x128_3_0 : S4x128.Slices ![3, 0] S1x128
  shapeCasts_S47_S1x47 : S47.ShapeCasts S1x47
  inb_S128x47_S128x47_0_0 : ∀ a, (![0, 0] : Fin 2 → Nat) a + S128x47.size a ≤ S128x47.size a
  h_S128x47 : 0 < S128x47.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S4000x47 : S1x47.Broadcasts S4000x47
  inb_S4000x47_S4000x47_0_0 : ∀ a, (![0, 0] : Fin 2 → Nat) a + S4000x47.size a ≤ S4000x47.size a
  h_S4000x47 : 0 < S4000x47.numel
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x47_S4000x47_1_0_0_1_n_n_wf : DotDims.WF S4000x128 S128x47 S4000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S100000x128.size a
  hwx0_7 : ∀ i : grid0.Coords, EltTy.bits .f32 = 32 ∨ (Rect.block (s := S100000x128) S4000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S100000x128.size a
  hwx1_7 : ∀ i : grid1.Coords, EltTy.bits .f32 = 32 ∨ (Rect.block (s := S100000x128) S4000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x128.size a ≤ S100000x128.size a
  hwx2_7 : ∀ i : grid2.Coords, EltTy.bits .f32 = 32 ∨ (Rect.block (s := S100000x128) S4000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4000x128.size a ≤ S100000x128.size a
  hwx3_7 : ∀ i : grid3.Coords, EltTy.bits .f32 = 32 ∨ (Rect.block (s := S100000x128) S4000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x47.size a ≤ S128x47.size a
  hwx4_1 : ∀ i : grid4.Coords, EltTy.bits .f32 = 32 ∨ (Rect.block (s := S128x47) S128x47.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x47.size a ≤ S1x47.size a
  hwx4_2 : ∀ i : grid4.Coords, EltTy.bits .f32 = 32 ∨ (Rect.block (s := S1x47) S1x47.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x47.size a ≤ S100000x47.size a
  hwx4_3 : ∀ i : grid4.Coords, EltTy.bits .f32 = 32 ∨ (Rect.block (s := S100000x47) S4000x47.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x47_S4000x47_1_0_0_1_n_n : DotDims S4000x128 S128x47 S4000x47 where
  lhsContracting := [1]
  rhsContracting := [0]
  lhsNonContracting := [0]
  rhsNonContracting := [1]
  lhsBatch := []
  rhsBatch := []
  wf := dot_S4000x128_S128x47_S4000x47_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v42) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v57) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v59) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v60) S4000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v76) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v78) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v89) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v90) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v91) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v92) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v93) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v94) S4000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v110) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v112) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v123) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v124) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v125) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v126) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v127) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v128) S4000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v128) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S128x47.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v129) S1x47.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v130) S4000x47.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S4x128 : Shape := ⟨2, ![4, 128]⟩
abbrev S128x47 : Shape := ⟨2, ![128, 47]⟩
abbrev S47 : Shape := ⟨1, ![47]⟩
abbrev S_ : Shape := ⟨0, ![]⟩
abbrev S100000 : Shape := ⟨1, ![100000]⟩
abbrev S1600000x1 : Shape := ⟨2, ![1600000, 1]⟩
abbrev S1x128 : Shape := ⟨2, ![1, 128]⟩
abbrev S1x128x128 : Shape := ⟨3, ![1, 128, 128]⟩
abbrev S100000x1 : Shape := ⟨2, ![100000, 1]⟩
abbrev S1600000x128 : Shape := ⟨2, ![1600000, 128]⟩
abbrev S100000x47 : Shape := ⟨2, ![100000, 47]⟩
abbrev S1x47 : Shape := ⟨2, ![1, 47]⟩

abbrev nBuf : Space → Nat
  | .hbm => 228
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S3x128x128, .f32⟩
  | 6 => ⟨S3x128, .f32⟩
  | 7 => ⟨S4x128, .f32⟩
  | 8 => ⟨S4x128, .f32⟩
  | 9 => ⟨S4x128, .f32⟩
  | 10 => ⟨S4x128, .f32⟩
  | 11 => ⟨S128x47, .f32⟩
  | 12 => ⟨S47, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .f32⟩
  | 28 => ⟨S100000, .f32⟩
  | 29 => ⟨S100000, .f32⟩
  | 30 => ⟨S100000, .f32⟩
  | 31 => ⟨S100000x128, .f32⟩
  | 32 => ⟨S1x128, .f32⟩
  | 33 => ⟨S100000x128, .f32⟩
  | 34 => ⟨S100000x128, .f32⟩
  | 35 => ⟨S1x128, .f32⟩
  | 36 => ⟨S128, .f32⟩
  | 37 => ⟨S1x128, .f32⟩
  | 38 => ⟨S128, .f32⟩
  | 39 => ⟨S1x128, .f32⟩
  | 40 => ⟨S128, .f32⟩
  | 41 => ⟨S1x128, .f32⟩
  | 42 => ⟨S128, .f32⟩
  | 43 => ⟨S1x128, .f32⟩
  | 44 => ⟨S100000x128, .f32⟩
  | 45 => ⟨S100000x128, .f32⟩
  | 46 => ⟨S_, .f32⟩
  | 47 => ⟨S128, .f32⟩
  | 48 => ⟨S128, .f32⟩
  | 49 => ⟨S128, .f32⟩
  | 50 => ⟨S1x128, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S1x128, .f32⟩
  | 57 => ⟨S100000x128, .f32⟩
  | 58 => ⟨S100000x128, .f32⟩
  | 59 => ⟨S_, .f32⟩
  | 60 => ⟨S100000x128, .f32⟩
  | 61 => ⟨S100000x128, .f32⟩
  | 62 => ⟨S1x128x128, .f32⟩
  | 63 => ⟨S128x128, .f32⟩
  | 64 => ⟨S1x128, .f32⟩
  | 65 => ⟨S128, .f32⟩
  | 66 => ⟨S100000x1, .f32⟩
  | 67 => ⟨S100000x128, .f32⟩
  | 68 => ⟨S100000x128, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1600000x128, .f32⟩
  | 78 => ⟨S_, .f32⟩
  | 79 => ⟨S100000x128, .f32⟩
  | 80 => ⟨S1600000x1, .i32⟩
  | 81 => ⟨S100000x128, .f32⟩
  | 82 => ⟨S100000x1, .f32⟩
  | 83 => ⟨S100000x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S1x128, .f32⟩
  | 90 => ⟨S128, .f32⟩
  | 91 => ⟨S1x128, .f32⟩
  | 92 => ⟨S128, .f32⟩
  | 93 => ⟨S1x128, .f32⟩
  | 94 => ⟨S128, .f32⟩
  | 95 => ⟨S1x128, .f32⟩
  | 96 => ⟨S128, .f32⟩
  | 97 => ⟨S1x128, .f32⟩
  | 98 => ⟨S100000x128, .f32⟩
  | 99 => ⟨S100000x128, .f32⟩
  | 100 => ⟨S_, .f32⟩
  | 101 => ⟨S128, .f32⟩
  | 102 => ⟨S128, .f32⟩
  | 103 => ⟨S128, .f32⟩
  | 104 => ⟨S1x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S1x128, .f32⟩
  | 111 => ⟨S100000x128, .f32⟩
  | 112 => ⟨S100000x128, .f32⟩
  | 113 => ⟨S_, .f32⟩
  | 114 => ⟨S100000x128, .f32⟩
  | 115 => ⟨S100000x128, .f32⟩
  | 116 => ⟨S1x128x128, .f32⟩
  | 117 => ⟨S128x128, .f32⟩
  | 118 => ⟨S1x128, .f32⟩
  | 119 => ⟨S128, .f32⟩
  | 120 => ⟨S100000x1, .f32⟩
  | 121 => ⟨S100000x128, .f32⟩
  | 122 => ⟨S100000x128, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x128, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x128, .f32⟩
  | 4 => ⟨S_, .f32⟩
  | 5 => ⟨S100000x128, .f32⟩
  | 6 => ⟨S1600000x1, .i32⟩
  | 7 => ⟨S100000x128, .f32⟩
  | 8 => ⟨S100000x1, .f32⟩
  | 9 => ⟨S100000x128, .f32⟩
  | 10 => ⟨S100000x128, .f32⟩
  | 11 => ⟨S100000x128, .f32⟩
  | 12 => ⟨S1x128, .f32⟩
  | 13 => ⟨S100000x128, .f32⟩
  | 14 => ⟨S100000x128, .f32⟩
  | 15 => ⟨S1x128, .f32⟩
  | 16 => ⟨S128, .f32⟩
  | 17 => ⟨S1x128, .f32⟩
  | 18 => ⟨S128, .f32⟩
  | 19 => ⟨S1x128, .f32⟩
  | 20 => ⟨S128, .f32⟩
  | 21 => ⟨S1x128, .f32⟩
  | 22 => ⟨S128, .f32⟩
  | 23 => ⟨S1x128, .f32⟩
  | 24 => ⟨S100000x128, .f32⟩
  | 25 => ⟨S100000x128, .f32⟩
  | 26 => ⟨S_, .f32⟩
  | 27 => ⟨S128, .f32⟩
  | 28 => ⟨S128, .f32⟩
  | 29 => ⟨S128, .f32⟩
  | 30 => ⟨S1x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S1x128, .f32⟩
  | 37 => ⟨S100000x128, .f32⟩
  | 38 => ⟨S100000x128, .f32⟩
  | 39 => ⟨S_, .f32⟩
  | 40 => ⟨S100000x128, .f32⟩
  | 41 => ⟨S100000x128, .f32⟩
  | 42 => ⟨S1x128x128, .f32⟩
  | 43 => ⟨S128x128, .f32⟩
  | 44 => ⟨S1x128, .f32⟩
  | 45 => ⟨S128, .f32⟩
  | 46 => ⟨S100000x1, .f32⟩
  | 47 => ⟨S100000x128, .f32⟩
  | 48 => ⟨S100000x128, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x128, .f32⟩
  | 58 => ⟨S_, .f32⟩
  | 59 => ⟨S100000x128, .f32⟩
  | 60 => ⟨S1600000x1, .i32⟩
  | 61 => ⟨S100000x128, .f32⟩
  | 62 => ⟨S100000x1, .f32⟩
  | 63 => ⟨S100000x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S1x128, .f32⟩
  | 70 => ⟨S128, .f32⟩
  | 71 => ⟨S1x128, .f32⟩
  | 72 => ⟨S128, .f32⟩
  | 73 => ⟨S1x128, .f32⟩
  | 74 => ⟨S128, .f32⟩
  | 75 => ⟨S1x128, .f32⟩
  | 76 => ⟨S128, .f32⟩
  | 77 => ⟨S1x128, .f32⟩
  | 78 => ⟨S100000x128, .f32⟩
  | 79 => ⟨S100000x128, .f32⟩
  | 80 => ⟨S_, .f32⟩
  | 81 => ⟨S128, .f32⟩
  | 82 => ⟨S128, .f32⟩
  | 83 => ⟨S128, .f32⟩
  | 84 => ⟨S1x128, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S1x128, .f32⟩
  | 91 => ⟨S100000x128, .f32⟩
  | 92 => ⟨S100000x128, .f32⟩
  | 93 => ⟨S_, .f32⟩
  | 94 => ⟨S100000x128, .f32⟩
  | 95 => ⟨S100000x128, .f32⟩
  | 96 => ⟨S100000x47, .f32⟩
  | 97 => ⟨S1x47, .f32⟩
  | 98 => ⟨S100000x47, .f32⟩
  | 99 => ⟨S100000x47, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_call0_cst : Ref sig .tc := ⟨.hbm, 59, rfl⟩
abbrev main_call0_v0 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c : Ref sig .tc := ⟨.hbm, 69, rfl⟩
abbrev main_v48 : Ref sig .tc := ⟨.hbm, 70, rfl⟩
abbrev main_v49 : Ref sig .tc := ⟨.hbm, 71, rfl⟩
abbrev main_c_5 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_6 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_7 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_call1_cst : Ref sig .tc := ⟨.hbm, 113, rfl⟩
abbrev main_call1_v0 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_c_8 : Ref sig .tc := ⟨.hbm, 123, rfl⟩
abbrev main_v96 : Ref sig .tc := ⟨.hbm, 124, rfl⟩
abbrev main_v97 : Ref sig .tc := ⟨.hbm, 125, rfl⟩
abbrev main_c_9 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_10 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_cst_11 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_call2_cst : Ref sig .tc := ⟨.hbm, 167, rfl⟩
abbrev main_call2_v0 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_c_12 : Ref sig .tc := ⟨.hbm, 177, rfl⟩
abbrev main_v144 : Ref sig .tc := ⟨.hbm, 178, rfl⟩
abbrev main_v145 : Ref sig .tc := ⟨.hbm, 179, rfl⟩
abbrev main_c_13 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_cst_14 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_cst_15 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_call3_cst : Ref sig .tc := ⟨.hbm, 221, rfl⟩
abbrev main_call3_v0 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S4x128_S1x128_0_0 : S4x128.Slices ![0, 0] S1x128
  shapeCasts_S1x128_S128 : S1x128.ShapeCasts S128
  bcast_S_S128 : S_.BroadcastsInDim S128 (![] : Fin 0 → Fin S128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S4x128_S1x128_1_0 : S4x128.Slices ![1, 0] S1x128
  slices_S3x128x128_S1x128x128_1_0_0 : S3x128x128.Slices ![1, 0, 0] S1x128x128
  slices_S3x128_S1x128_1_0 : S3x128.Slices ![1, 0] S1x128
  slices_S4x128_S1x128_2_0 : S4x128.Slices ![2, 0] S1x128
  slices_S3x128x128_S1x128x128_2_0_0 : S3x128x128.Slices ![2, 0, 0] S1x128x128
  slices_S3x128_S1x128_2_0 : S3x128.Slices ![2, 0] S1x128
  slices_S4x128_S1x128_3_0 : S4x128.Slices ![3, 0] S1x128
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x47_S100000x47_1_0_0_1_n_n_wf : DotDims.WF S100000x128 S128x47 S100000x47 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x47_S100000x47_1_0_0_1_n_n : DotDims S100000x128 S128x47 S100000x47 where
  lhsContracting := [1]
  rhsContracting := [0]
  lhsNonContracting := [0]
  rhsNonContracting := [1]
  lhsBatch := []
  rhsBatch := []
  wf := dot_S100000x128_S128x47_S100000x47_1_0_0_1_n_n_wf

class Facts : Prop extends Facts₀ where

variable [Facts]
-- ==== Proof.KernelRun.lean ====
/-
  The network program's run with its result named. The five layer kernels and the host stretches between them are
  run one after the other; at the end every array of the accelerator's main memory that is not scoped to a kernel
  holds what that chain of stretches and kernel write-backs leaves in it. Read at the result array and at the thirteen
  argument arrays this is: the result is the last kernel's output array, and the arguments are as launched.
-/
import proofs.«175036_j91216515432582_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and at its end every main-memory array
    holds the contents the chain of host stretches and kernel write-backs assigns to it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- The same run read at the result array and at the argument arrays. -/
theorem run : θ_run defs (onTc (τ := τ) (main (F := F))) ⟨m, fun _ => 0, ρ⟩ (fun r => ∀ c : Dev nD,
      r.2.mem ((c.tc : Thread nD τ).loc main_v130) = W10 m ρ c (Proc.devRef .tc main_v130)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun s h c =>
      ⟨h c _ (mem_uc main_v130 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c)⟩)
    (run_all m ρ)

end Cert.KernelIdeal.RunValue

end
-- ==== Proof.LibPlainDot.lean ====
/-
  A matrix product whose dimension numbers are the plain ones — rows by one contracted axis times that axis by
  columns, no batch axis — read at an output index (r, c): the sum over the contracted coordinate k of
  left (r, k) times right (k, c). Stated for any dimension record with those axis lists, so that a kernel's
  tile product and a host's whole product are both this one sum over `Fin K`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The contraction sum of a plain product is the sum over the one contracted coordinate. -/
theorem contr_sum (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have h1 : d.lhsContracting = [1] := by rw [← hd]
  have h2 : d.rhsContracting = [0] := by rw [← hd]
  have hr : d.contr.rank = 1 := by rw [← hd]; rfl
  have hs : d.contr.size ⟨0, by omega⟩ = K := by subst hd; rfl
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ =>
      subst hd
      unfold DotDims.lhsIdx
      rw [dif_neg (by exact List.not_mem_nil), dif_pos (by exact List.mem_singleton.mpr rfl)]
      rfl
    | ⟨1, _⟩ => exact (d.lhsIdx_val_of_single h1 j _).trans hk)
  have er : d.rhsIdx j ((contrEquiv1 d K hr hs).symm k) = ix2 k (j 1) := funext fun a => Fin.ext (by
    match a with
    | ⟨0, _⟩ => exact (d.rhsIdx_val_of_single h2 j _).trans hk
    | ⟨1, _⟩ =>
      subst hd
      unfold DotDims.rhsIdx
      rw [dif_neg (by exact List.not_mem_nil), dif_pos (by exact List.mem_singleton.mpr rfl)]
      rfl)
  exact congrArg₂ (· * ·) (congrArg l el) (congrArg r er)

/-- A host product with plain dimension numbers, at the exact reals, read at an index. -/
theorem dotGeneral_plain {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (contr_sum d h1 h2 h3 h4 h5 h6 l r j)

/-- A tile product into the zero accumulator with plain dimension numbers, at the exact reals, read at an index. -/
theorem matmul_zero_plain {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (j : (⟨2, ![M, N]⟩ : Shape).Idx) :
    FloatOps.matmul d prec l r (constant (F := Ideal) ⟨2, ![M, N]⟩ .f32 0x00000000#32) j
      = ∑ k : Fin K, l (ix2 (j 0) k) * r (ix2 k (j 1)) :=
  (Ideal.matmul_constant_zero_apply d prec l r j).trans (contr_sum d h1 h2 h3 h4 h5 h6 l r j)

end Idealize.ShloMosaic.PlainDot

end
-- ==== Proof.DenseSpec.lean ====
/-
  The two per-node layers of the network, written entry by entry on the extended reals.

  A hidden layer sends a node's feature row x to relu(((x·W + b) − μ) · rsqrt(σ² + ε) · γ + β): a matrix product with
  a 128-wide contraction, a bias, an evaluation-mode batch normalisation with running mean μ and variance σ², and a
  clamp at zero. The output layer is the plain affine map x·W + b. The small constant ε and the zero of the clamp are
  kept as their binary patterns: both programs spell the same two patterns, so they are never evaluated.
-/
import Idealize.ShloMosaic.PureOps.Ideal
import Idealize.ShloMosaic.Lib.ValueIdx

noncomputable section

open scoped BigOperators

namespace Cert.Gcn

open Idealize.ShloMosaic Idealize.ShloMosaic.ValueIdx

/-- One entry of a hidden layer after the product: `acc` is the row-by-column sum, the other five are that column's
    bias, scale γ, shift β, running mean and running variance. -/
def bnReluAt (acc b g bt mu var : EReal) : EReal :=
  max ((((acc + b) - mu) * Ideal.rsqrt (var + Ideal.ofBits .f32 0x3727C5AC#32)) * g + bt) (Ideal.ofBits .f32 0x00000000#32)

/-- Row `r` of `x` against column `c` of `w`, summed over the 128 shared coordinates. -/
def dotAt {M N : Nat} (x : (⟨2, ![M, 128]⟩ : Shape).Idx → EReal) (w : (⟨2, ![128, N]⟩ : Shape).Idx → EReal)
    (r : Fin M) (c : Fin N) : EReal :=
  ∑ k : Fin 128, x (ix2 r k) * w (ix2 k c)

/-- A vector of per-column parameters as a function of the column. -/
def vec {n : Nat} (v : (⟨1, ![n]⟩ : Shape).Idx → EReal) : Fin n → EReal := fun q => v (ix1 q)

/-- A hidden layer over all 100000 nodes; the five per-column parameters are given as functions of the column. -/
def hidden (x : (⟨2, ![100000, 128]⟩ : Shape).Idx → EReal) (w : (⟨2, ![128, 128]⟩ : Shape).Idx → EReal)
    (b g bt mu var : Fin 128 → EReal) : (⟨2, ![100000, 128]⟩ : Shape).Idx → EReal :=
  fun i => bnReluAt (dotAt x w (i 0) (i 1)) (b (i 1)) (g (i 1)) (bt (i 1)) (mu (i 1)) (var (i 1))

/-- The output layer over all 100000 nodes: 47 class scores per node. -/
def scores (x : (⟨2, ![100000, 128]⟩ : Shape).Idx → EReal) (w : (⟨2, ![128, 47]⟩ : Shape).Idx → EReal)
    (b : Fin 47 → EReal) : (⟨2, ![100000, 47]⟩ : Shape).Idx → EReal :=
  fun i => dotAt x w (i 0) (i 1) + b (i 1)

end Cert.Gcn

end
-- ==== Proof.BlockValue.lean ====
/-
  What one grid step of each layer kernel stores, read at an entry (p, q) of its 4000-row output block: the layer's
  entry formula of the block's own rows. Rounding the two matrix operands to bfloat16 is the identity on the extended
  reals, the product into a zero accumulator is the plain 128-term sum, and each one-row parameter block is repeated
  down the 4000 rows.
-/
import proofs.«175036_j91216515432582_1_alg».proof.Proof.Gen.KernelIdeal.Skeleton
import proofs.«175036_j91216515432582_1_alg».proof.Proof.LibPlainDot
import proofs.«175036_j91216515432582_1_alg».proof.Proof.DenseSpec
import Idealize.ShloMosaic.Lib.ValueLayout
import Idealize.ShloMosaic.Lib.Pipeline.Value

noncomputable section

open scoped BigOperators

namespace Cert.KernelIdeal.BlockValue

open Cert.KernelIdeal Cert.KernelIdeal.Gen Idealize.ShloMosaic Idealize.ShloMosaic.ValueIdx Idealize.ShloMosaic.PlainDot

/-- The tile product of a 4000×128 block with a 128×128 weight, at an entry. -/
theorem mm128 (l : FVec Ideal S4000x128 .bf16) (r : FVec Ideal S128x128 .bf16) (p : Fin 4000) (q : Fin 128) :
    matmul dot_S4000x128_S128x128_S4000x128_1_0_0_1_n_n none l r (constant (F := Ideal) S4000x128 .f32 0x00000000#32) (ix2 p q)
      = ∑ k : Fin 128, l (ix2 p k) * r (ix2 k q) :=
  matmul_zero_plain dot_S4000x128_S128x128_S4000x128_1_0_0_1_n_n rfl rfl rfl rfl rfl rfl none l r (ix2 p q)

/-- The tile product of a 4000×128 block with the 128×47 output weight, at an entry. -/
theorem mm47 (l : FVec Ideal S4000x128 .bf16) (r : FVec Ideal S128x47 .bf16) (p : Fin 4000) (q : Fin 47) :
    matmul dot_S4000x128_S128x47_S4000x47_1_0_0_1_n_n none l r (constant (F := Ideal) S4000x47 .f32 0x00000000#32) (ix2 p q)
      = ∑ k : Fin 128, l (ix2 p k) * r (ix2 k q) :=
  matmul_zero_plain dot_S4000x128_S128x47_S4000x47_1_0_0_1_n_n rfl rfl rfl rfl rfl rfl none l r (ix2 p q)

/-- A one-row block of 128 columns repeated down 4000 rows, at an entry. -/
theorem row128 (v : FVec Ideal S1x128 .f32) (p : Fin 4000) (q : Fin 128) :
    broadcastTo S4000x128 v broadcasts_S1x128_S4000x128 (ix2 p q) = v (ix2 (0 : Fin 1) q) :=
  broadcastTo_1b_ab_apply v broadcasts_S1x128_S4000x128 p q

/-- A one-row block of 47 columns repeated down 4000 rows, at an entry. -/
theorem row47 (v : FVec Ideal S1x47 .f32) (p : Fin 4000) (q : Fin 47) :
    broadcastTo S4000x47 v broadcasts_S1x47_S4000x47 (ix2 p q) = v (ix2 (0 : Fin 1) q) :=
  broadcastTo_1b_ab_apply v broadcasts_S1x47_S4000x47 p q

/-- The input layer's stored block at an entry. -/
theorem pay0_at (x0 : Vec Ideal S4000x128 .f32) (x1 : Vec Ideal S128x128 .f32) (x2 x3 x4 x5 x6 : Vec Ideal S1x128 .f32)
    (p : Fin 4000) (q : Fin 128) :
    k0_pay1 (F := Ideal) x0 x1 x2 x6 x5 x3 x4 (ix2 p q)
      = Gcn.bnReluAt (Gcn.dotAt x0 x1 p q) (x2 (ix2 (0 : Fin 1) q)) (x3 (ix2 (0 : Fin 1) q)) (x4 (ix2 (0 : Fin 1) q))
          (x5 (ix2 (0 : Fin 1) q)) (x6 (ix2 (0 : Fin 1) q)) := by
  unfold k0_pay1 Gcn.bnReluAt Gcn.dotAt
  simp only [shapeCast_self, maximumf_apply, addf_apply, mulf_apply, subf_apply, broadcast_apply]
  rw [mm128, row128, row128, row128, row128, row128]
  rfl

/-- The first graph layer's stored block at an entry. -/
theorem pay1_at (x0 : Vec Ideal S4000x128 .f32) (x1 : Vec Ideal S128x128 .f32) (x2 x3 x4 x5 x6 : Vec Ideal S1x128 .f32)
    (p : Fin 4000) (q : Fin 128) :
    k1_pay1 (F := Ideal) x0 x1 x2 x6 x5 x3 x4 (ix2 p q)
      = Gcn.bnReluAt (Gcn.dotAt x0 x1 p q) (x2 (ix2 (0 : Fin 1) q)) (x3 (ix2 (0 : Fin 1) q)) (x4 (ix2 (0 : Fin 1) q))
          (x5 (ix2 (0 : Fin 1) q)) (x6 (ix2 (0 : Fin 1) q)) := by
  unfold k1_pay1 Gcn.bnReluAt Gcn.dotAt
  simp only [shapeCast_self, maximumf_apply, addf_apply, mulf_apply, subf_apply, broadcast_apply]
  rw [mm128, row128, row128, row128, row128, row128]
  rfl

/-- The second graph layer's stored block at an entry. -/
theorem pay2_at (x0 : Vec Ideal S4000x128 .f32) (x1 : Vec Ideal S128x128 .f32) (x2 x3 x4 x5 x6 : Vec Ideal S1x128 .f32)
    (p : Fin 4000) (q : Fin 128) :
    k2_pay1 (F := Ideal) x0 x1 x2 x6 x5 x3 x4 (ix2 p q)
      = Gcn.bnReluAt (Gcn.dotAt x0 x1 p q) (x2 (ix2 (0 : Fin 1) q)) (x3 (ix2 (0 : Fin 1) q)) (x4 (ix2 (0 : Fin 1) q))
          (x5 (ix2 (0 : Fin 1) q)) (x6 (ix2 (0 : Fin 1) q)) := by
  unfold k2_pay1 Gcn.bnReluAt Gcn.dotAt
  simp only [shapeCast_self, maximumf_apply, addf_apply, mulf_apply, subf_apply, broadcast_apply]
  rw [mm128, row128, row128, row128, row128, row128]
  rfl

/-- The third graph layer's stored block at an entry. -/
theorem pay3_at (x0 : Vec Ideal S4000x128 .f32) (x1 : Vec Ideal S128x128 .f32) (x2 x3 x4 x5 x6 : Vec Ideal S1x128 .f32)
    (p : Fin 4000) (q : Fin 128) :
    k3_pay1 (F := Ideal) x0 x1 x2 x6 x5 x3 x4 (ix2 p q)
      = Gcn.bnReluAt (Gcn.dotAt x0 x1 p q) (x2 (ix2 (0 : Fin 1) q)) (x3 (ix2 (0 : Fin 1) q)) (x4 (ix2 (0 : Fin 1) q))
          (x5 (ix2 (0 : Fin 1) q)) (x6 (ix2 (0 : Fin 1) q)) := by
  unfold k3_pay1 Gcn.bnReluAt Gcn.dotAt
  simp only [shapeCast_self, maximumf_apply, addf_apply, mulf_apply, subf_apply, broadcast_apply]
  rw [mm128, row128, row128, row128, row128, row128]
  rfl

/-- The output layer's stored block at an entry: the product plus the bias row. -/
theorem pay4_at (x0 : Vec Ideal S4000x128 .f32) (x1 : Vec Ideal S128x47 .f32) (x2 : Vec Ideal S1x47 .f32)
    (p : Fin 4000) (q : Fin 47) :
    k4_pay1 (F := Ideal) x0 x1 x2 (ix2 p q) = Gcn.dotAt x0 x1 p q + x2 (ix2 (0 : Fin 1) q) := by
  unfold k4_pay1 Gcn.dotAt
  simp only [shapeCast_self, addf_apply]
  rw [mm47, row47]
  rfl

end Cert.KernelIdeal.BlockValue

end
-- ==== Proof.Layer0.lean ====
/-
  The input layer's kernel: what its output array holds after the 25 grid steps. Step t stores rows 4000·t … 4000·t + 3999 of the
  layer applied to the whole arrays its windows range over — the input block is those same rows of the input array, the
  weight and the five one-row parameter blocks are whole arrays at every step — and the 25 row blocks tile the
  100000 rows, so the array ends as the layer of the whole arrays.
-/
import proofs.«175036_j91216515432582_1_alg».proof.Proof.Gen.KernelIdeal.Frame
import proofs.«175036_j91216515432582_1_alg».proof.Proof.BlockValue

set_option maxRecDepth 16384

noncomputable section

open scoped BigOperators

namespace Cert.KernelIdeal.Layer0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The layer applied to the whole arrays the kernel's windows range over, as the kernel finds them. -/
def whole (c : Dev nD) : S100000x128.Idx → Elt Ideal .f32 :=
  Gcn.hidden (V c main_arg0) (V c main_arg3) (fun q => V c main_v21 (ix2 (0 : Fin 1) q)) (fun q => V c main_v22 (ix2 (0 : Fin 1) q))
    (fun q => V c main_v23 (ix2 (0 : Fin 1) q)) (fun q => V c main_v24 (ix2 (0 : Fin 1) q)) (fun q => V c main_v25 (ix2 (0 : Fin 1) q))

/-- Where each window's block sits at a grid step: the input and output blocks at row block t, every other block at
    the origin. Decided over the 25 steps. -/
theorem blockPos : ∀ t : Fin cfg0.N,
    win0_0.index t (0 : Fin 2) = win0_7.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (1 : Fin 2) = 0 ∧ win0_7.index t (0 : Fin 2) ≤ 24 :=
  (by decide +kernel : ∀ t : Fin grid0.N, _)

/-- Every one of the 25 row blocks is some step's output block. -/
theorem blockOnto : ∀ q0 : Fin 25, ∃ t : Fin cfg0.N, win0_7.index t = ![q0.val, 0] :=
  (by decide +kernel : ∀ q0 : Fin 25, ∃ t : Fin grid0.N, win0_7.index t = ![q0.val, 0])

/-- What step t writes back is block t of the layer of the whole arrays. -/
theorem flushed_eq (c : Dev nD) (t : Fin cfg0.N) :
    (dat0 V c).flushed 7 t = ((cfg0.win 7).blk t).view.read (Elt Ideal) (whole V c) := by
  show (cfg0.win 7).cut (grid0.coords t) ((dat0 V c).after 7 t) = _
  rw [after0_7]
  unfold out0_7
  rw [View.canon_unit_zero zeros]
  simp only [View.ld_unit_zero (S := S4000x128) zeros, View.ld_unit_zero (S := S128x128) zeros, View.ld_unit_zero (S := S1x128) zeros]
  obtain ⟨e00, e01, e10, e11, e20, e21, e30, e31, e40, e41, e50, e51, e60, e61, eo1, eo0⟩ := blockPos t
  funext j
  obtain ⟨p, q, rfl⟩ : ∃ (p : Fin 4000) (q : Fin 128), j = ix2 p q := ⟨j 0, j 1, eq_ix2 j⟩
  refine (BlockValue.pay0_at (iblk0 V c 0 t) (iblk0 V c 1 t) (iblk0 V c 2 t) (iblk0 V c 3 t) (iblk0 V c 4 t) (iblk0 V c 5 t) (iblk0 V c 6 t) p q).trans ?_
  have hr : win0_7.index t (0 : Fin 2) * 4000 + p.val < 100000 := by have := p.isLt; omega
  have he : ((cfg0.win 7).blk t).view.emb (ix2 p q)
      = ix2 (⟨win0_7.index t (0 : Fin 2) * 4000 + p.val, hr⟩ : Fin 100000) q := by
    funext a; apply Fin.ext
    match a with
    | ⟨0, _⟩ => show win0_7.index t (0 : Fin 2) * 4000 + 1 * p.val = win0_7.index t (0 : Fin 2) * 4000 + p.val; omega
    | ⟨1, _⟩ => show win0_7.index t (1 : Fin 2) * 128 + 1 * q.val = q.val; omega
  show _ = whole V c (((cfg0.win 7).blk t).view.emb (ix2 p q))
  rw [he]
  have h0 : ∀ k : Fin 128, iblk0 V c 0 t (ix2 p k)
      = V c main_arg0 (ix2 (⟨win0_7.index t (0 : Fin 2) * 4000 + p.val, hr⟩ : Fin 100000) k) := fun k => by
    show V c main_arg0 (((cfg0.win 0).blk t).view.emb (ix2 p k)) = _
    refine congrArg (V c main_arg0) (funext fun a => Fin.ext ?_)
    match a with
    | ⟨0, _⟩ => show win0_0.index t (0 : Fin 2) * 4000 + 1 * p.val = win0_7.index t (0 : Fin 2) * 4000 + p.val; omega
    | ⟨1, _⟩ => show win0_0.index t (1 : Fin 2) * 128 + 1 * k.val = k.val; omega
  have h1 : ∀ k : Fin 128, iblk0 V c 1 t (ix2 k q) = V c main_arg3 (ix2 k q) := fun k => by
    show V c main_arg3 (((cfg0.win 1).blk t).view.emb (ix2 k q)) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  have h2 : iblk0 V c 2 t (ix2 (0 : Fin 1) q) = V c main_v21 (ix2 (0 : Fin 1) q) := by
    show V c main_v21 (((cfg0.win 2).blk t).view.emb (ix2 (0 : Fin 1) q)) = _
    refine congrArg (V c main_v21) (funext fun a => Fin.ext ?_)
    match a with
    | ⟨0, _⟩ => show win0_2.index t (0 : Fin 2) * 1 + 1 * 0 = 0; omega
    | ⟨1, _⟩ => show win0_2.index t (1 : Fin 2) * 128 + 1 * q.val = q.val; omega
  have h3 : iblk0 V c 3 t (ix2 (0 : Fin 1) q) = V c main_v22 (ix2 (0 : Fin 1) q) := by
    show V c main_v22 (((cfg0.win 3).blk t).view.emb (ix2 (0 : Fin 1) q)) = _
    refine congrArg (V c main_v22) (funext fun a => Fin.ext ?_)
    match a with
    | ⟨0, _⟩ => show win0_3.index t (0 : Fin 2) * 1 + 1 * 0 = 0; omega
    | ⟨1, _⟩ => show win0_3.index t (1 : Fin 2) * 128 + 1 * q.val = q.val; omega
  have h4 : iblk0 V c 4 t (ix2 (0 : Fin 1) q) = V c main_v23 (ix2 (0 : Fin 1) q) := by
    show V c main_v23 (((cfg0.win 4).blk t).view.emb (ix2 (0 : Fin 1) q)) = _
    refine congrArg (V c main_v23) (funext fun a => Fin.ext ?_)
    match a with
    | ⟨0, _⟩ => show win0_4.index t (0 : Fin 2) * 1 + 1 * 0 = 0; omega
    | ⟨1, _⟩ => show win0_4.index t (1 : Fin 2) * 128 + 1 * q.val = q.val; omega
  have h5 : iblk0 V c 5 t (ix2 (0 : Fin 1) q) = V c main_v24 (ix2 (0 : Fin 1) q) := by
    show V c main_v24 (((cfg0.win 5).blk t).view.emb (ix2 (0 : Fin 1) q)) = _
    refine congrArg (V c main_v24) (funext fun a => Fin.ext ?_)
    match a with
    | ⟨0, _⟩ => show win0_5.index t (0 : Fin 2) * 1 + 1 * 0 = 0; omega
    | ⟨1, _⟩ => show win0_5.index t (1 : Fin 2) * 128 + 1 * q.val = q.val; omega
  have h6 : iblk0 V c 6 t (ix2 (0 : Fin 1) q) = V c main_v25 (ix2 (0 : Fin 1) q) := by
    show V c main_v25 (((cfg0.win 6).blk t).view.emb (ix2 (0 : Fin 1) q)) = _
    refine congrArg (V c main_v25) (funext fun a => Fin.ext ?_)
    match a with
    | ⟨0, _⟩ => show win0_6.index t (0 : Fin 2) * 1 + 1 * 0 = 0; omega
    | ⟨1, _⟩ => show win0_6.index t (1 : Fin 2) * 128 + 1 * q.val = q.val; omega
  unfold Gcn.dotAt
  simp only [h0, h1]
  rw [h2, h3, h4, h5, h6]
  rfl

/-- An index of the output array lies in step t's block iff each coordinate lies in the block's range on its axis. -/
theorem mem_blk (t : Fin cfg0.N) (i : S100000x128.Idx) :
    i ∈ ((cfg0.win 7).blk t).view.set ↔ ∀ a : Fin 2, win0_7.index t a * S4000x128.size a ≤ (i a).val
      ∧ (i a).val < win0_7.index t a * S4000x128.size a + S4000x128.size a := by
  show i ∈ ((View.whole main_v26).slice (win0_7.rect t)).set ↔ _
  rw [View.set_slice_whole, Rect.mem_set_unit]
  exact Iff.rfl

/-- Every index of the output array is in some step's block: row r is in row block r / 4000. -/
theorem covered (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  obtain ⟨t, ht⟩ := blockOnto ⟨(i 0).val / 4000, by omega⟩
  have q0 : win0_7.index t (0 : Fin 2) = (i 0).val / 4000 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 4000 ≤ (i 0).val ∧ (i 0).val < win0_7.index t (0 : Fin 2) * 4000 + 4000; omega
  | ⟨1, _⟩ => show win0_7.index t (1 : Fin 2) * 128 ≤ (i 1).val ∧ (i 1).val < win0_7.index t (1 : Fin 2) * 128 + 128; omega

/-- The output array after the kernel: the layer of the whole arrays. -/
theorem final (c : Dev nD) : (dat0 V c).arrAt 7 cfg0.N = whole V c :=
  (dat0 V c).arrAt_eq_of_cover 7 (whole V c) (fun t _ => flushed_eq V c t) covered

end Cert.KernelIdeal.Layer0

end
-- ==== Proof.Layer1.lean ====
/-
  The first graph layer's kernel: what its output array holds after the 25 grid steps. Step t stores rows 4000·t … 4000·t + 3999 of the
  layer applied to the whole arrays its windows range over — the input block is those same rows of the input array, the
  weight and the five one-row parameter blocks are whole arrays at every step — and the 25 row blocks tile the
  100000 rows, so the array ends as the layer of the whole arrays.
-/
import proofs.«175036_j91216515432582_1_alg».proof.Proof.Gen.KernelIdeal.Frame
import proofs.«175036_j91216515432582_1_alg».proof.Proof.BlockValue

set_option maxRecDepth 16384

noncomputable section

open scoped BigOperators

namespace Cert.KernelIdeal.Layer1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The layer applied to the whole arrays the kernel's windows range over, as the kernel finds them. -/
def whole (c : Dev nD) : S100000x128.Idx → Elt Ideal .f32 :=
  Gcn.hidden (V c main_v42) (V c main_v44) (fun q => V c main_v55 (ix2 (0 : Fin 1) q)) (fun q => V c main_v56 (ix2 (0 : Fin 1) q))
    (fun q => V c main_v57 (ix2 (0 : Fin 1) q)) (fun q => V c main_v58 (ix2 (0 : Fin 1) q)) (fun q => V c main_v59 (ix2 (0 : Fin 1) q))

/-- Where each window's block sits at a grid step: the input and output blocks at row block t, every other block at
    the origin. Decided over the 25 steps. -/
theorem blockPos : ∀ t : Fin cfg1.N,
    win1_0.index t (0 : Fin 2) = win1_7.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (1 : Fin 2) = 0 ∧ win1_7.index t (0 : Fin 2) ≤ 24 :=
  (by decide +kernel : ∀ t : Fin grid1.N, _)

/-- Every one of the 25 row blocks is some step's output block. -/
theorem blockOnto : ∀ q0 : Fin 25, ∃ t : Fin cfg1.N, win1_7.index t = ![q0.val, 0] :=
  (by decide +kernel : ∀ q0 : Fin 25, ∃ t : Fin grid1.N, win1_7.index t = ![q0.val, 0])

/-- What step t writes back is block t of the layer of the whole arrays. -/
theorem flushed_eq (c : Dev nD) (t : Fin cfg1.N) :
    (dat1 V c).flushed 7 t = ((cfg1.win 7).blk t).view.read (Elt Ideal) (whole V c) := by
  show (cfg1.win 7).cut (grid1.coords t) ((dat1 V c).after 7 t) = _
  rw [after1_7]
  unfold out1_7
  rw [View.canon_unit_zero zeros]
  simp only [View.ld_unit_zero (S := S4000x128) zeros, View.ld_unit_zero (S := S128x128) zeros, View.ld_unit_zero (S := S1x128) zeros]
  obtain ⟨e00, e01, e10, e11, e20, e21, e30, e31, e40, e41, e50, e51, e60, e61, eo1, eo0⟩ := blockPos t
  funext j
  obtain ⟨p, q, rfl⟩ : ∃ (p : Fin 4000) (q : Fin 128), j = ix2 p q := ⟨j 0, j 1, eq_ix2 j⟩
  refine (BlockValue.pay1_at (iblk1 V c 0 t) (iblk1 V c 1 t) (iblk1 V c 2 t) (iblk1 V c 3 t) (iblk1 V c 4 t) (iblk1 V c 5 t) (iblk1 V c 6 t) p q).trans ?_
  have hr : win1_7.index t (0 : Fin 2) * 4000 + p.val < 100000 := by have := p.isLt; omega
  have he : ((cfg1.win 7).blk t).view.emb (ix2 p q)
      = ix2 (⟨win1_7.index t (0 : Fin 2) * 4000 + p.val, hr⟩ : Fin 100000) q := by
    funext a; apply Fin.ext
    match a with
    | ⟨0, _⟩ => show win1_7.index t (0 : Fin 2) * 4000 + 1 * p.val = win1_7.index t (0 : Fin 2) * 4000 + p.val; omega
    | ⟨1, _⟩ => show win1_7.index t (1 : Fin 2) * 128 + 1 * q.val = q.val; omega
  show _ = whole V c (((cfg1.win 7).blk t).view.emb (ix2 p q))
  rw [he]
  have h0 : ∀ k : Fin 128, iblk1 V c 0 t (ix2 p k)
      = V c main_v42 (ix2 (⟨win1_7.index t (0 : Fin 2) * 4000 + p.val, hr⟩ : Fin 100000) k) := fun k => by
    show V c main_v42 (((cfg1.win 0).blk t).view.emb (ix2 p k)) = _
    refine congrArg (V c main_v42) (funext fun a => Fin.ext ?_)
    match a with
    | ⟨0, _⟩ => show win1_0.index t (0 : Fin 2) * 4000 + 1 * p.val = win1_7.index t (0 : Fin 2) * 4000 + p.val; omega
    | ⟨1, _⟩ => show win1_0.index t (1 : Fin 2) * 128 + 1 * k.val = k.val; omega
  have h1 : ∀ k : Fin 128, iblk1 V c 1 t (ix2 k q) = V c main_v44 (ix2 k q) := fun k => by
    show V c main_v44 (((cfg1.win 1).blk t).view.emb (ix2 k q)) = _
    refine congrArg (V c main_v44) (funext fun a => Fin.ext ?_)
    match a with
    | ⟨0, _⟩ => show win1_1.index t (0 : Fin 2) * 128 + 1 * k.val = k.val; omega
    | ⟨1, _⟩ => show win1_1.index t (1 : Fin 2) * 128 + 1 * q.val = q.val; omega
  have h2 : iblk1 V c 2 t (ix2 (0 : Fin 1) q) = V c main_v55 (ix2 (0 : Fin 1) q) := by
    show V c main_v55 (((cfg1.win 2).blk t).view.emb (ix2 (0 : Fin 1) q)) = _
    refine congrArg (V c main_v55) (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  have h3 : iblk1 V c 3 t (ix2 (0 : Fin 1) q) = V c main_v56 (ix2 (0 : Fin 1) q) := by
    show V c main_v56 (((cfg1.win 3).blk t).view.emb (ix2 (0 : Fin 1) q)) = _
    refine congrArg (V c main_v56) (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega
  have h4 : iblk1 V c 4 t (ix2 (0 : Fin 1) q) = V c main_v57 (ix2 (0 : Fin 1) q) := by
    show V c main_v57 (((cfg1.win 4).blk t).view.emb (ix2 (0 : Fin 1) q)) = _
    refine congrArg (V c main_v57) (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega
  have h5 : iblk1 V c 5 t (ix2 (0 : Fin 1) q) = V c main_v58 (ix2 (0 : Fin 1) q) := by
    show V c main_v58 (((cfg1.win 5).blk t).view.emb (ix2 (0 : Fin 1) q)) = _
    refine congrArg (V c main_v58) (funext fun a => Fin.ext ?_)
    match a with
    | ⟨0, _⟩ => show win1_5.index t (0 : Fin 2) * 1 + 1 * 0 = 0; omega
    | ⟨1, _⟩ => show win1_5.index t (1 : Fin 2) * 128 + 1 * q.val = q.val; omega
  have h6 : iblk1 V c 6 t (ix2 (0 : Fin 1) q) = V c main_v59 (ix2 (0 : Fin 1) q) := by
    show V c main_v59 (((cfg1.win 6).blk t).view.emb (ix2 (0 : Fin 1) q)) = _
    refine congrArg (V c main_v59) (funext fun a => Fin.ext ?_)
    match a with
    | ⟨0, _⟩ => show win1_6.index t (0 : Fin 2) * 1 + 1 * 0 = 0; omega
    | ⟨1, _⟩ => show win1_6.index t (1 : Fin 2) * 128 + 1 * q.val = q.val; omega
  unfold Gcn.dotAt
  simp only [h0, h1]
  rw [h2, h3, h4, h5, h6]
  rfl

/-- An index of the output array lies in step t's block iff each coordinate lies in the block's range on its axis. -/
theorem mem_blk (t : Fin cfg1.N) (i : S100000x128.Idx) :
    i ∈ ((cfg1.win 7).blk t).view.set ↔ ∀ a : Fin 2, win1_7.index t a * S4000x128.size a ≤ (i a).val
      ∧ (i a).val < win1_7.index t a * S4000x128.size a + S4000x128.size a := by
  show i ∈ ((View.whole main_v60).slice (win1_7.rect t)).set ↔ _
  rw [View.set_slice_whole, Rect.mem_set_unit]
  exact Iff.rfl

/-- Every index of the output array is in some step's block: row r is in row block r / 4000. -/
theorem covered (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  obtain ⟨t, ht⟩ := blockOnto ⟨(i 0).val / 4000, by omega⟩
  have q0 : win1_7.index t (0 : Fin 2) = (i 0).val / 4000 := congrFun ht 0
  have q1 : win1_7.index t (1 : Fin 2) = 0 := congrFun ht 1
  refine ⟨t, flush1_7 t, ?_⟩
  rw [mem_blk]
  intro a
  match a with
  | ⟨0, _⟩ => show win1_7.index t (0 : Fin 2) * 4000 ≤ (i 0).val ∧ (i 0).val < win1_7.index t (0 : Fin 2) * 4000 + 4000; omega
  | ⟨1, _⟩ => show win1_7.index t (1 : Fin 2) * 128 ≤ (i 1).val ∧ (i 1).val < win1_7.index t (1 : Fin 2) * 128 + 128; omega

/-- The output array after the kernel: the layer of the whole arrays. -/
theorem final (c : Dev nD) : (dat1 V c).arrAt 7 cfg1.N = whole V c :=
  (dat1 V c).arrAt_eq_of_cover 7 (whole V c) (fun t _ => flushed_eq V c t) covered

end Cert.KernelIdeal.Layer1

end
-- ==== Proof.Layer2.lean ====
/-
  The second graph layer's kernel: what its output array holds after the 25 grid steps. Step t stores rows 4000·t … 4000·t + 3999 of the
  layer applied to the whole arrays its windows range over — the input block is those same rows of the input array, the
  weight and the five one-row parameter blocks are whole arrays at every step — and the 25 row blocks tile the
  100000 rows, so the array ends as the layer of the whole arrays.
-/
import proofs.«175036_j91216515432582_1_alg».proof.Proof.Gen.KernelIdeal.Frame
import proofs.«175036_j91216515432582_1_alg».proof.Proof.BlockValue

set_option maxRecDepth 16384

noncomputable section

open scoped BigOperators

namespace Cert.KernelIdeal.Layer2

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The layer applied to the whole arrays the kernel's windows range over, as the kernel finds them. -/
def whole (c : Dev nD) : S100000x128.Idx → Elt Ideal .f32 :=
  Gcn.hidden (V c main_v76) (V c main_v78) (fun q => V c main_v89 (ix2 (0 : Fin 1) q)) (fun q => V c main_v90 (ix2 (0 : Fin 1) q))
    (fun q => V c main_v91 (ix2 (0 : Fin 1) q)) (fun q => V c main_v92 (ix2 (0 : Fin 1) q)) (fun q => V c main_v93 (ix2 (0 : Fin 1) q))

/-- Where each window's block sits at a grid step: the input and output blocks at row block t, every other block at
    the origin. Decided over the 25 steps. -/
theorem blockPos : ∀ t : Fin cfg2.N,
    win2_0.index t (0 : Fin 2) = win2_7.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (1 : Fin 2) = 0 ∧ win2_7.index t (0 : Fin 2) ≤ 24 :=
  (by decide +kernel : ∀ t : Fin grid2.N, _)

/-- Every one of the 25 row blocks is some step's output block. -/
theorem blockOnto : ∀ q0 : Fin 25, ∃ t : Fin cfg2.N, win2_7.index t = ![q0.val, 0] :=
  (by decide +kernel : ∀ q0 : Fin 25, ∃ t : Fin grid2.N, win2_7.index t = ![q0.val, 0])

/-- What step t writes back is block t of the layer of the whole arrays. -/
theorem flushed_eq (c : Dev nD) (t : Fin cfg2.N) :
    (dat2 V c).flushed 7 t = ((cfg2.win 7).blk t).view.read (Elt Ideal) (whole V c) := by
  show (cfg2.win 7).cut (grid2.coords t) ((dat2 V c).after 7 t) = _
  rw [after2_7]
  unfold out2_7
  rw [View.canon_unit_zero zeros]
  simp only [View.ld_unit_zero (S := S4000x128) zeros, View.ld_unit_zero (S := S128x128) zeros, View.ld_unit_zero (S := S1x128) zeros]
  obtain ⟨e00, e01, e10, e11, e20, e21, e30, e31, e40, e41, e50, e51, e60, e61, eo1, eo0⟩ := blockPos t
  funext j
  obtain ⟨p, q, rfl⟩ : ∃ (p : Fin 4000) (q : Fin 128), j = ix2 p q := ⟨j 0, j 1, eq_ix2 j⟩
  refine (BlockValue.pay2_at (iblk2 V c 0 t) (iblk2 V c 1 t) (iblk2 V c 2 t) (iblk2 V c 3 t) (iblk2 V c 4 t) (iblk2 V c 5 t) (iblk2 V c 6 t) p q).trans ?_
  have hr : win2_7.index t (0 : Fin 2) * 4000 + p.val < 100000 := by have := p.isLt; omega
  have he : ((cfg2.win 7).blk t).view.emb (ix2 p q)
      = ix2 (⟨win2_7.index t (0 : Fin 2) * 4000 + p.val, hr⟩ : Fin 100000) q := by
    funext a; apply Fin.ext
    match a with
    | ⟨0, _⟩ => show win2_7.index t (0 : Fin 2) * 4000 + 1 * p.val = win2_7.index t (0 : Fin 2) * 4000 + p.val; omega
    | ⟨1, _⟩ => show win2_7.index t (1 : Fin 2) * 128 + 1 * q.val = q.val; omega
  show _ = whole V c (((cfg2.win 7).blk t).view.emb (ix2 p q))
  rw [he]
  have h0 : ∀ k : Fin 128, iblk2 V c 0 t (ix2 p k)
      = V c main_v76 (ix2 (⟨win2_7.index t (0 : Fin 2) * 4000 + p.val, hr⟩ : Fin 100000) k) := fun k => by
    show V c main_v76 (((cfg2.win 0).blk t).view.emb (ix2 p k)) = _
    refine congrArg (V c main_v76) (funext fun a => Fin.ext ?_)
    match a with
    | ⟨0, _⟩ => show win2_0.index t (0 : Fin 2) * 4000 + 1 * p.val = win2_7.index t (0 : Fin 2) * 4000 + p.val; omega
    | ⟨1, _⟩ => show win2_0.index t (1 : Fin 2) * 128 + 1 * k.val = k.val; omega
  have h1 : ∀ k : Fin 128, iblk2 V c 1 t (ix2 k q) = V c main_v78 (ix2 k q) := fun k => by
    show V c main_v78 (((cfg2.win 1).blk t).view.emb (ix2 k q)) = _
    refine congrArg (V c main_v78) (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega
  have h2 : iblk2 V c 2 t (ix2 (0 : Fin 1) q) = V c main_v89 (ix2 (0 : Fin 1) q) := by
    show V c main_v89 (((cfg2.win 2).blk t).view.emb (ix2 (0 : Fin 1) q)) = _
    refine congrArg (V c main_v89) (funext fun a => Fin.ext ?_)
    match a with
    | ⟨0, _⟩ => show win2_2.index t (0 : Fin 2) * 1 + 1 * 0 = 0; omega
    | ⟨1, _⟩ => show win2_2.index t (1 : Fin 2) * 128 + 1 * q.val = q.val; omega
  have h3 : iblk2 V c 3 t (ix2 (0 : Fin 1) q) = V c main_v90 (ix2 (0 : Fin 1) q) := by
    show V c main_v90 (((cfg2.win 3).blk t).view.emb (ix2 (0 : Fin 1) q)) = _
    refine congrArg (V c main_v90) (funext fun a => Fin.ext ?_)
    match a with
    | ⟨0, _⟩ => show win2_3.index t (0 : Fin 2) * 1 + 1 * 0 = 0; omega
    | ⟨1, _⟩ => show win2_3.index t (1 : Fin 2) * 128 + 1 * q.val = q.val; omega
  have h4 : iblk2 V c 4 t (ix2 (0 : Fin 1) q) = V c main_v91 (ix2 (0 : Fin 1) q) := by
    show V c main_v91 (((cfg2.win 4).blk t).view.emb (ix2 (0 : Fin 1) q)) = _
    refine congrArg (V c main_v91) (funext fun a => Fin.ext ?_)
    match a with
    | ⟨0, _⟩ => show win2_4.index t (0 : Fin 2) * 1 + 1 * 0 = 0; omega
    | ⟨1, _⟩ => show win2_4.index t (1 : Fin 2) * 128 + 1 * q.val = q.val; omega
  have h5 : iblk2 V c 5 t (ix2 (0 : Fin 1) q) = V c main_v92 (ix2 (0 : Fin 1) q) := by
    show V c main_v92 (((cfg2.win 5).blk t).view.emb (ix2 (0 : Fin 1) q)) = _
    refine congrArg (V c main_v92) (funext fun a => Fin.ext ?_)
    match a with
    | ⟨0, _⟩ => show win2_5.index t (0 : Fin 2) * 1 + 1 * 0 = 0; omega
    | ⟨1, _⟩ => show win2_5.index t (1 : Fin 2) * 128 + 1 * q.val = q.val; omega
  have h6 : iblk2 V c 6 t (ix2 (0 : Fin 1) q) = V c main_v93 (ix2 (0 : Fin 1) q) := by
    show V c main_v93 (((cfg2.win 6).blk t).view.emb (ix2 (0 : Fin 1) q)) = _
    refine congrArg (V c main_v93) (funext fun a => Fin.ext ?_)
    match a with
    | ⟨0, _⟩ => show win2_6.index t (0 : Fin 2) * 1 + 1 * 0 = 0; omega
    | ⟨1, _⟩ => show win2_6.index t (1 : Fin 2) * 128 + 1 * q.val = q.val; omega
  unfold Gcn.dotAt
  simp only [h0, h1]
  rw [h2, h3, h4, h5, h6]
  rfl

/-- An index of the output array lies in step t's block iff each coordinate lies in the block's range on its axis. -/
theorem mem_blk (t : Fin cfg2.N) (i : S100000x128.Idx) :
    i ∈ ((cfg2.win 7).blk t).view.set ↔ ∀ a : Fin 2, win2_7.index t a * S4000x128.size a ≤ (i a).val
      ∧ (i a).val < win2_7.index t a * S4000x128.size a + S4000x128.size a := by
  show i ∈ ((View.whole main_v94).slice (win2_7.rect t)).set ↔ _
  rw [View.set_slice_whole, Rect.mem_set_unit]
  exact Iff.rfl

/-- Every index of the output array is in some step's block: row r is in row block r / 4000. -/
theorem covered (i : S100000x128.Idx) :
    ∃ t : Fin cfg2.N, (cfg2.win 7).flush t = true ∧ i ∈ ((cfg2.win 7).blk t).view.set := by
  have hi0 : (i 0).val < 100000 := (i 0).isLt
  have hi1 : (i 1).val < 128 := (i 1).isLt
  obtain ⟨t, ht⟩ := blockOnto ⟨(i 0).val / 4000, by omega⟩
  have q0 : win2_7.index t (0 : Fin 2) = (i 0).val / 4000 := congrFun ht 0
  have q1 : win2_7.index t (1 : Fin 2) = 0 := congrFun ht 1
  refine ⟨t, flush2_7 t, ?_⟩
  rw [mem_blk]
  intro a
  match a with
  | ⟨0, _⟩ => show win2_7.index t (0 : Fin 2) * 4000 ≤ (i 0).val ∧ (i 0).val < win2_7.index t (0 : Fin 2) * 4000 + 4000; omega
  | ⟨1, _⟩ => show win2_7.index t (1 : Fin 2) * 128 ≤ (i 1).val ∧ (i 1).val < win2_7.index t (1 : Fin 2) * 128 + 128; omega

/-- The output array after the kernel: the layer of the whole arrays. -/
theorem final (c : Dev nD) : (dat2 V c).arrAt 7 cfg2.N = whole V c :=
  (dat2 V c).arrAt_eq_of_cover 7 (whole V c) (fun t _ => flushed_eq V c t) covered

end Cert.KernelIdeal.Layer2

end
-- ==== Proof.Layer3.lean ====
/-
  The third graph layer's kernel: what its output array holds after the 25 grid steps. Step t stores rows 4000·t … 4000·t + 3999 of the
  layer applied to the whole arrays its windows range over — the input block is those same rows of the input array, the
  weight and the five one-row parameter blocks are whole arrays at every step — and the 25 row blocks tile the
  100000 rows, so the array ends as the layer of the whole arrays.
-/
import proofs.«175036_j91216515432582_1_alg».proof.Proof.Gen.KernelIdeal.Frame
import proofs.«175036_j91216515432582_1_alg».proof.Proof.BlockValue

set_option maxRecDepth 16384

noncomputable section

open scoped BigOperators

namespace Cert.KernelIdeal.Layer3

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The layer applied to the whole arrays the kernel's windows range over, as the kernel finds them. -/
def whole (c : Dev nD) : S100000x128.Idx → Elt Ideal .f32 :=
  Gcn.hidden (V c main_v110) (V c main_v112) (fun q => V c main_v123 (ix2 (0 : Fin 1) q)) (fun q => V c main_v124 (ix2 (0 : Fin 1) q))
    (fun q => V c main_v125 (ix2 (0 : Fin 1) q)) (fun q => V c main_v126 (ix2 (0 : Fin 1) q)) (fun q => V c main_v127 (ix2 (0 : Fin 1) q))

/-- Where each window's block sits at a grid step: the input and output blocks at row block t, every other block at
    the origin. Decided over the 25 steps. -/
theorem blockPos : ∀ t : Fin cfg3.N,
    win3_0.index t (0 : Fin 2) = win3_7.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (1 : Fin 2) = 0 ∧ win3_7.index t (0 : Fin 2) ≤ 24 :=
  (by decide +kernel : ∀ t : Fin grid3.N, _)

/-- Every one of the 25 row blocks is some step's output block. -/
theorem blockOnto : ∀ q0 : Fin 25, ∃ t : Fin cfg3.N, win3_7.index t = ![q0.val, 0] :=
  (by decide +kernel : ∀ q0 : Fin 25, ∃ t : Fin grid3.N, win3_7.index t = ![q0.val, 0])

/-- What step t writes back is block t of the layer of the whole arrays. -/
theorem flushed_eq (c : Dev nD) (t : Fin cfg3.N) :
    (dat3 V c).flushed 7 t = ((cfg3.win 7).blk t).view.read (Elt Ideal) (whole V c) := by
  show (cfg3.win 7).cut (grid3.coords t) ((dat3 V c).after 7 t) = _
  rw [after3_7]
  unfold out3_7
  rw [View.canon_unit_zero zeros]
  simp only [View.ld_unit_zero (S := S4000x128) zeros, View.ld_unit_zero (S := S128x128) zeros, View.ld_unit_zero (S := S1x128) zeros]
  obtain ⟨e00, e01, e10, e11, e20, e21, e30, e31, e40, e41, e50, e51, e60, e61, eo1, eo0⟩ := blockPos t
  funext j
  obtain ⟨p, q, rfl⟩ : ∃ (p : Fin 4000) (q : Fin 128), j = ix2 p q := ⟨j 0, j 1, eq_ix2 j⟩
  refine (BlockValue.pay3_at (iblk3 V c 0 t) (iblk3 V c 1 t) (iblk3 V c 2 t) (iblk3 V c 3 t) (iblk3 V c 4 t) (iblk3 V c 5 t) (iblk3 V c 6 t) p q).trans ?_
  have hr : win3_7.index t (0 : Fin 2) * 4000 + p.val < 100000 := by have := p.isLt; omega
  have he : ((cfg3.win 7).blk t).view.emb (ix2 p q)
      = ix2 (⟨win3_7.index t (0 : Fin 2) * 4000 + p.val, hr⟩ : Fin 100000) q := by
    funext a; apply Fin.ext
    match a with
    | ⟨0, _⟩ => show win3_7.index t (0 : Fin 2) * 4000 + 1 * p.val = win3_7.index t (0 : Fin 2) * 4000 + p.val; omega
    | ⟨1, _⟩ => show win3_7.index t (1 : Fin 2) * 128 + 1 * q.val = q.val; omega
  show _ = whole V c (((cfg3.win 7).blk t).view.emb (ix2 p q))
  rw [he]
  have h0 : ∀ k : Fin 128, iblk3 V c 0 t (ix2 p k)
      = V c main_v110 (ix2 (⟨win3_7.index t (0 : Fin 2) * 4000 + p.val, hr⟩ : Fin 100000) k) := fun k => by
    show V c main_v110 (((cfg3.win 0).blk t).view.emb (ix2 p k)) = _
    refine congrArg (V c main_v110) (funext fun a => Fin.ext ?_)
    match a with
    | ⟨0, _⟩ => show win3_0.index t (0 : Fin 2) * 4000 + 1 * p.val = win3_7.index t (0 : Fin 2) * 4000 + p.val; omega
    | ⟨1, _⟩ => show win3_0.index t (1 : Fin 2) * 128 + 1 * k.val = k.val; omega
  have h1 : ∀ k : Fin 128, iblk3 V c 1 t (ix2 k q) = V c main_v112 (ix2 k q) := fun k => by
    show V c main_v112 (((cfg3.win 1).blk t).view.emb (ix2 k q)) = _
    refine congrArg (V c main_v112) (funext fun a => Fin.ext ?_)
    match a with
    | ⟨0, _⟩ => show win3_1.index t (0 : Fin 2) * 128 + 1 * k.val = k.val; omega
    | ⟨1, _⟩ => show win3_1.index t (1 : Fin 2) * 128 + 1 * q.val = q.val; omega
  have h2 : iblk3 V c 2 t (ix2 (0 : Fin 1) q) = V c main_v123 (ix2 (0 : Fin 1) q) := by
    show V c main_v123 (((cfg3.win 2).blk t).view.emb (ix2 (0 : Fin 1) q)) = _
    refine congrArg (V c main_v123) (funext fun a => Fin.ext ?_)
    match a with
    | ⟨0, _⟩ => show win3_2.index t (0 : Fin 2) * 1 + 1 * 0 = 0; omega
    | ⟨1, _⟩ => show win3_2.index t (1 : Fin 2) * 128 + 1 * q.val = q.val; omega
  have h3 : iblk3 V c 3 t (ix2 (0 : Fin 1) q) = V c main_v124 (ix2 (0 : Fin 1) q) := by
    show V c main_v124 (((cfg3.win 3).blk t).view.emb (ix2 (0 : Fin 1) q)) = _
    refine congrArg (V c main_v124) (funext fun a => Fin.ext ?_)
    match a with
    | ⟨0, _⟩ => show win3_3.index t (0 : Fin 2) * 1 + 1 * 0 = 0; omega
    | ⟨1, _⟩ => show win3_3.index t (1 : Fin 2) * 128 + 1 * q.val = q.val; omega
  have h4 : iblk3 V c 4 t (ix2 (0 : Fin 1) q) = V c main_v125 (ix2 (0 : Fin 1) q) := by
    show V c main_v125 (((cfg3.win 4).blk t).view.emb (ix2 (0 : Fin 1) q)) = _
    refine congrArg (V c main_v125) (funext fun a => Fin.ext ?_)
    match a with
    | ⟨0, _⟩ => show win3_4.index t (0 : Fin 2) * 1 + 1 * 0 = 0; omega
    | ⟨1, _⟩ => show win3_4.index t (1 : Fin 2) * 128 + 1 * q.val = q.val; omega
  have h5 : iblk3 V c 5 t (ix2 (0 : Fin 1) q) = V c main_v126 (ix2 (0 : Fin 1) q) := by
    show V c main_v126 (((cfg3.win 5).blk t).view.emb (ix2 (0 : Fin 1) q)) = _
    refine congrArg (V c main_v126) (funext fun a => Fin.ext ?_)
    match a with
    | ⟨0, _⟩ => show win3_5.index t (0 : Fin 2) * 1 + 1 * 0 = 0; omega
    | ⟨1, _⟩ => show win3_5.index t (1 : Fin 2) * 128 + 1 * q.val = q.val; omega
  have h6 : iblk3 V c 6 t (ix2 (0 : Fin 1) q) = V c main_v127 (ix2 (0 : Fin 1) q) := by
    show V c main_v127 (((cfg3.win 6).blk t).view.emb (ix2 (0 : Fin 1) q)) = _
    refine congrArg (V c main_v127) (funext fun a => Fin.ext ?_)
    match a with
    | ⟨0, _⟩ => show win3_6.index t (0 : Fin 2) * 1 + 1 * 0 = 0; omega
    | ⟨1, _⟩ => show win3_6.index t (1 : Fin 2) * 128 + 1 * q.val = q.val; omega
  unfold Gcn.dotAt
  simp only [h0, h1]
  rw [h2, h3, h4, h5, h6]
  rfl

/-- An index of the output array lies in step t's block iff each coordinate lies in the block's range on its axis. -/
theorem mem_blk (t : Fin cfg3.N) (i : S100000x128.Idx) :
    i ∈ ((cfg3.win 7).blk t).view.set ↔ ∀ a : Fin 2, win3_7.index t a * S4000x128.size a ≤ (i a).val
      ∧ (i a).val < win3_7.index t a * S4000x128.size a + S4000x128.size a := by
  show i ∈ ((View.whole main_v128).slice (win3_7.rect t)).set ↔ _
  rw [View.set_slice_whole, Rect.mem_set_unit]
  exact Iff.rfl

/-- Every index of the output array is in some step's block: row r is in row block r / 4000. -/
theorem covered (i : S100000x128.Idx) :
    ∃ t : Fin cfg3.N, (cfg3.win 7).flush t = true ∧ i ∈ ((cfg3.win 7).blk t).view.set := by
  have hi0 : (i 0).val < 100000 := (i 0).isLt
  have hi1 : (i 1).val < 128 := (i 1).isLt
  obtain ⟨t, ht⟩ := blockOnto ⟨(i 0).val / 4000, by omega⟩
  have q0 : win3_7.index t (0 : Fin 2) = (i 0).val / 4000 := congrFun ht 0
  have q1 : win3_7.index t (1 : Fin 2) = 0 := congrFun ht 1
  refine ⟨t, flush3_7 t, ?_⟩
  rw [mem_blk]
  intro a
  match a with
  | ⟨0, _⟩ => show win3_7.index t (0 : Fin 2) * 4000 ≤ (i 0).val ∧ (i 0).val < win3_7.index t (0 : Fin 2) * 4000 + 4000; omega
  | ⟨1, _⟩ => show win3_7.index t (1 : Fin 2) * 128 ≤ (i 1).val ∧ (i 1).val < win3_7.index t (1 : Fin 2) * 128 + 128; omega

/-- The output array after the kernel: the layer of the whole arrays. -/
theorem final (c : Dev nD) : (dat3 V c).arrAt 7 cfg3.N = whole V c :=
  (dat3 V c).arrAt_eq_of_cover 7 (whole V c) (fun t _ => flushed_eq V c t) covered

end Cert.KernelIdeal.Layer3

end
-- ==== Proof.Layer4.lean ====
/-
  The output layer's kernel: what its output array holds after the 25 grid steps. Step t stores rows 4000·t … 4000·t + 3999 of the
  layer applied to the whole arrays its windows range over — the input block is those same rows of the input array, the
  weight and the one-row bias block are whole arrays at every step — and the 25 row blocks tile the
  100000 rows, so the array ends as the layer of the whole arrays.
-/
import proofs.«175036_j91216515432582_1_alg».proof.Proof.Gen.KernelIdeal.Frame
import proofs.«175036_j91216515432582_1_alg».proof.Proof.BlockValue

set_option maxRecDepth 16384

noncomputable section

open scoped BigOperators

namespace Cert.KernelIdeal.Layer4

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The layer applied to the whole arrays the kernel's windows range over, as the kernel finds them. -/
def whole (c : Dev nD) : S100000x47.Idx → Elt Ideal .f32 :=
  Gcn.scores (V c main_v128) (V c main_arg11) (fun q => V c main_v129 (ix2 (0 : Fin 1) q))

/-- Where each window's block sits at a grid step: the input and output blocks at row block t, every other block at
    the origin. Decided over the 25 steps. -/
theorem blockPos : ∀ t : Fin cfg4.N,
    win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 ∧ win4_3.index t (0 : Fin 2) ≤ 24 :=
  (by decide +kernel : ∀ t : Fin grid4.N, _)

/-- Every one of the 25 row blocks is some step's output block. -/
theorem blockOnto : ∀ q0 : Fin 25, ∃ t : Fin cfg4.N, win4_3.index t = ![q0.val, 0] :=
  (by decide +kernel : ∀ q0 : Fin 25, ∃ t : Fin grid4.N, win4_3.index t = ![q0.val, 0])

/-- What step t writes back is block t of the layer of the whole arrays. -/
theorem flushed_eq (c : Dev nD) (t : Fin cfg4.N) :
    (dat4 V c).flushed 3 t = ((cfg4.win 3).blk t).view.read (Elt Ideal) (whole V c) := by
  show (cfg4.win 3).cut (grid4.coords t) ((dat4 V c).after 3 t) = _
  rw [after4_3]
  unfold out4_3
  rw [View.canon_unit_zero zeros]
  simp only [View.ld_unit_zero (S := S4000x128) zeros, View.ld_unit_zero (S := S128x47) zeros, View.ld_unit_zero (S := S1x47) zeros]
  obtain ⟨e00, e01, e10, e11, e20, e21, eo1, eo0⟩ := blockPos t
  funext j
  obtain ⟨p, q, rfl⟩ : ∃ (p : Fin 4000) (q : Fin 47), j = ix2 p q := ⟨j 0, j 1, eq_ix2 j⟩
  refine (BlockValue.pay4_at (iblk4 V c 0 t) (iblk4 V c 1 t) (iblk4 V c 2 t) p q).trans ?_
  have hr : win4_3.index t (0 : Fin 2) * 4000 + p.val < 100000 := by have := p.isLt; omega
  have he : ((cfg4.win 3).blk t).view.emb (ix2 p q)
      = ix2 (⟨win4_3.index t (0 : Fin 2) * 4000 + p.val, hr⟩ : Fin 100000) q := by
    funext a; apply Fin.ext
    match a with
    | ⟨0, _⟩ => show win4_3.index t (0 : Fin 2) * 4000 + 1 * p.val = win4_3.index t (0 : Fin 2) * 4000 + p.val; omega
    | ⟨1, _⟩ => show win4_3.index t (1 : Fin 2) * 47 + 1 * q.val = q.val; omega
  show _ = whole V c (((cfg4.win 3).blk t).view.emb (ix2 p q))
  rw [he]
  have h0 : ∀ k : Fin 128, iblk4 V c 0 t (ix2 p k)
      = V c main_v128 (ix2 (⟨win4_3.index t (0 : Fin 2) * 4000 + p.val, hr⟩ : Fin 100000) k) := fun k => by
    show V c main_v128 (((cfg4.win 0).blk t).view.emb (ix2 p k)) = _
    refine congrArg (V c main_v128) (funext fun a => Fin.ext ?_)
    match a with
    | ⟨0, _⟩ => show win4_0.index t (0 : Fin 2) * 4000 + 1 * p.val = win4_3.index t (0 : Fin 2) * 4000 + p.val; omega
    | ⟨1, _⟩ => show win4_0.index t (1 : Fin 2) * 128 + 1 * k.val = k.val; omega
  have h1 : ∀ k : Fin 128, iblk4 V c 1 t (ix2 k q) = V c main_arg11 (ix2 k q) := fun k => by
    show V c main_arg11 (((cfg4.win 1).blk t).view.emb (ix2 k q)) = _
    refine congrArg (V c main_arg11) (funext fun a => Fin.ext ?_)
    match a with
    | ⟨0, _⟩ => show win4_1.index t (0 : Fin 2) * 128 + 1 * k.val = k.val; omega
    | ⟨1, _⟩ => show win4_1.index t (1 : Fin 2) * 47 + 1 * q.val = q.val; omega
  have h2 : iblk4 V c 2 t (ix2 (0 : Fin 1) q) = V c main_v129 (ix2 (0 : Fin 1) q) := by
    show V c main_v129 (((cfg4.win 2).blk t).view.emb (ix2 (0 : Fin 1) q)) = _
    refine congrArg (V c main_v129) (funext fun a => Fin.ext ?_)
    match a with
    | ⟨0, _⟩ => show win4_2.index t (0 : Fin 2) * 1 + 1 * 0 = 0; omega
    | ⟨1, _⟩ => show win4_2.index t (1 : Fin 2) * 47 + 1 * q.val = q.val; omega
  unfold Gcn.dotAt
  simp only [h0, h1]
  rw [h2]
  rfl

/-- An index of the output array lies in step t's block iff each coordinate lies in the block's range on its axis. -/
theorem mem_blk (t : Fin cfg4.N) (i : S100000x47.Idx) :
    i ∈ ((cfg4.win 3).blk t).view.set ↔ ∀ a : Fin 2, win4_3.index t a * S4000x47.size a ≤ (i a).val
      ∧ (i a).val < win4_3.index t a * S4000x47.size a + S4000x47.size a := by
  show i ∈ ((View.whole main_v130).slice (win4_3.rect t)).set ↔ _
  rw [View.set_slice_whole, Rect.mem_set_unit]
  exact Iff.rfl

/-- Every index of the output array is in some step's block: row r is in row block r / 4000. -/
theorem covered (i : S100000x47.Idx) :
    ∃ t : Fin cfg4.N, (cfg4.win 3).flush t = true ∧ i ∈ ((cfg4.win 3).blk t).view.set := by
  have hi0 : (i 0).val < 100000 := (i 0).isLt
  have hi1 : (i 1).val < 47 := (i 1).isLt
  obtain ⟨t, ht⟩ := blockOnto ⟨(i 0).val / 4000, by omega⟩
  have q0 : win4_3.index t (0 : Fin 2) = (i 0).val / 4000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 4000 ≤ (i 0).val ∧ (i 0).val < win4_3.index t (0 : Fin 2) * 4000 + 4000; omega
  | ⟨1, _⟩ => show win4_3.index t (1 : Fin 2) * 47 ≤ (i 1).val ∧ (i 1).val < win4_3.index t (1 : Fin 2) * 47 + 47; omega

/-- The output array after the kernel: the layer of the whole arrays. -/
theorem final (c : Dev nD) : (dat4 V c).arrAt 3 cfg4.N = whole V c :=
  (dat4 V c).arrAt_eq_of_cover 3 (whole V c) (fun t _ => flushed_eq V c t) covered

end Cert.KernelIdeal.Layer4

end
-- ==== Proof.RefLayers.lean ====
/-
  The reference program's layers, each as one function of its input array and its parameters, and each read entry by
  entry. A hidden layer of the reference is a whole matrix product, then the bias, the running mean, the reciprocal root
  of the running variance plus ε, the scale and the shift, each a 128-vector spread over the rows, then the clamp at zero:
  at entry (r, q) that is the layer's entry formula of row r and column q. The output layer is a whole product plus the
  47-vector of biases spread over the rows. Neighbour aggregation is kept as one unopened function of the layer's input
  and the two edge-index arrays.
-/
import proofs.«175036_j91216515432582_1_alg».proof.Proof.Gen.ReferenceIdeal.Read
import proofs.«175036_j91216515432582_1_alg».proof.Proof.LibPlainDot
import proofs.«175036_j91216515432582_1_alg».proof.Proof.DenseSpec
import Idealize.ShloMosaic.Lib.ValueLayout

noncomputable section

open scoped BigOperators

namespace Cert.ReferenceIdeal.Layers

open Cert.ReferenceIdeal Cert.ReferenceIdeal.Gen Cert.ReferenceIdeal.Read Idealize.ShloMosaic Idealize.ShloMosaic.TcCoe
open Idealize.ShloMosaic.ValueIdx Idealize.ShloMosaic.PlainDot

/-- A scalar constant spread over any shape, at an entry: the constant. -/
theorem scalarOver {t : Shape} (dims : Fin S_.rank → Fin t.rank) (h : S_.BroadcastsInDim t dims) (b : BitVec 32) (i : t.Idx) :
    broadcastInDim t dims h (constant (F := Ideal) S_ .f32 b) i = Ideal.ofBits .f32 b :=
  broadcastInDim_apply dims h _ i ix0 (fun a => a.elim0)

/-- A 128-vector spread over the 100000 rows. -/
def overRows (v : FVec Ideal S128 .f32) : FVec Ideal S100000x128 .f32 :=
  broadcastInDim S100000x128 ![0, 1] bcast_S1x128_S100000x128_0_1 (broadcastInDim S1x128 ![1] bcast_S128_S1x128_1 v)

theorem overRows_apply (v : FVec Ideal S128 .f32) (r : Fin 100000) (q : Fin 128) : overRows v (ix2 r q) = v (ix1 q) := by
  unfold overRows
  refine (broadcastInDim_apply _ bcast_S1x128_S100000x128_0_1 _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])).trans ?_
  exact broadcastInDim_apply _ bcast_S128_S1x128_1 v (ix2 (0 : Fin 1) q) (ix1 q) (fun a => match a with
    | ⟨0, _⟩ => by show q.val = if (128 : Nat) = 1 then 0 else q.val; rw [if_neg (by decide)])

/-- A 47-vector spread over the 100000 rows. -/
def overRows47 (v : FVec Ideal S47 .f32) : FVec Ideal S100000x47 .f32 :=
  broadcastInDim S100000x47 ![0, 1] bcast_S1x47_S100000x47_0_1 (broadcastInDim S1x47 ![1] bcast_S47_S1x47_1 v)

theorem overRows47_apply (v : FVec Ideal S47 .f32) (r : Fin 100000) (q : Fin 47) : overRows47 v (ix2 r q) = v (ix1 q) := by
  unfold overRows47
  refine (broadcastInDim_apply _ bcast_S1x47_S100000x47_0_1 _ (ix2 r q) (ix2 (0 : Fin 1) q) (fun a => match a with
    | ⟨0, _⟩ => by show 0 = if (1 : Nat) = 1 then 0 else r.val; rw [if_pos rfl]
    | ⟨1, _⟩ => by show q.val = if (47 : Nat) = 1 then 0 else q.val; rw [if_neg (by decide)])).trans ?_
  exact broadcastInDim_apply _ bcast_S47_S1x47_1 v (ix2 (0 : Fin 1) q) (ix1 q) (fun a => match a with
    | ⟨0, _⟩ => by show q.val = if (47 : Nat) = 1 then 0 else q.val; rw [if_neg (by decide)])

/-- A hidden layer as the reference spells it: host operations on whole arrays. -/
def hostHidden (h : FVec Ideal S100000x128 .f32) (w : FVec Ideal S128x128 .f32) (b g bt mu var : FVec Ideal S128 .f32) : FVec Ideal S100000x128 .f32 :=
  maximumf (addf (mulf (mulf (subf (addf (Host.dotGeneral dot_S100000x128_S128x128_S100000x128_1_0_0_1_n_n none h w) (overRows b)) (overRows mu))
      (overRows (Host.rsqrt (addf var (broadcastInDim S128 ![] bcast_S_S128 (constant (F := Ideal) S_ .f32 0x3727C5AC#32))))))
      (overRows g)) (overRows bt))
    (broadcastInDim S100000x128 ![] bcast_S_S100000x128 (constant (F := Ideal) S_ .f32 0x00000000#32))

/-- The reference's hidden layer is the layer's entry formula at every entry. -/
theorem hostHidden_eq (h : FVec Ideal S100000x128 .f32) (w : FVec Ideal S128x128 .f32) (b g bt mu var : FVec Ideal S128 .f32) :
    hostHidden h w b g bt mu var
      = Gcn.hidden h w (Gcn.vec b) (Gcn.vec g) (Gcn.vec bt) (Gcn.vec mu) (Gcn.vec var) := by
  funext i
  obtain ⟨r, q, rfl⟩ : ∃ (r : Fin 100000) (q : Fin 128), i = ix2 r q := ⟨i 0, i 1, eq_ix2 i⟩
  unfold hostHidden Gcn.hidden Gcn.bnReluAt Gcn.dotAt Gcn.vec
  simp only [maximumf_apply, addf_apply, mulf_apply, subf_apply, Host.dotGeneral]
  rw [overRows_apply, overRows_apply, overRows_apply, overRows_apply, overRows_apply, scalarOver,
    dotGeneral_plain dot_S100000x128_S128x128_S100000x128_1_0_0_1_n_n rfl rfl rfl rfl rfl rfl]
  have hr : Host.rsqrt (F := Ideal) (addf var (broadcastInDim S128 ![] bcast_S_S128 (constant (F := Ideal) S_ .f32 0x3727C5AC#32))) (ix1 q)
      = Ideal.rsqrt (var (ix1 q) + Ideal.ofBits .f32 0x3727C5AC#32) := by
    show Ideal.rsqrt (var (ix1 q) + broadcastInDim S128 ![] bcast_S_S128 (constant (F := Ideal) S_ .f32 0x3727C5AC#32) (ix1 q)) = _
    rw [scalarOver]
  rw [hr]

/-- The output layer as the reference spells it. -/
def hostScores (h : FVec Ideal S100000x128 .f32) (w : FVec Ideal S128x47 .f32) (b : FVec Ideal S47 .f32) : FVec Ideal S100000x47 .f32 :=
  addf (Host.dotGeneral dot_S100000x128_S128x47_S100000x47_1_0_0_1_n_n none h w) (overRows47 b)

theorem hostScores_eq (h : FVec Ideal S100000x128 .f32) (w : FVec Ideal S128x47 .f32) (b : FVec Ideal S47 .f32) :
    hostScores h w b = Gcn.scores h w (Gcn.vec b) := by
  funext i
  obtain ⟨r, q, rfl⟩ : ∃ (r : Fin 100000) (q : Fin 47), i = ix2 r q := ⟨i 0, i 1, eq_ix2 i⟩
  unfold hostScores Gcn.scores Gcn.dotAt Gcn.vec
  simp only [addf_apply, Host.dotGeneral]
  rw [overRows47_apply, dotGeneral_plain dot_S100000x128_S128x47_S100000x47_1_0_0_1_n_n rfl rfl rfl rfl rfl rfl]

/-- Neighbour aggregation as the reference spells it, of any layer output `h`: scale row s by the source factor of
    node s, gather the rows of the edges' source nodes, add them into the rows of the edges' target nodes, scale row d
    by the target factor of node d. The two factor arrays and the wrapped source indices are functions of the edge
    arrays alone. It is never opened: both programs apply it to equal arrays. -/
def aggregate (h : FVec Ideal S100000x128 .f32) (x1 x2 : (⟨S1600000, .i32⟩ : BufTy).Contents (Elt Ideal)) : FVec Ideal S100000x128 .f32 :=
  mulf (Host.scatterAdd scatter_S100000x128_S1600000x1_S1600000x128_1_0_0_1 (val_main_v55 (F := Ideal)) (val_main_v56 (F := Ideal) x2)
      (Host.gather gather_S100000x128_S1600000x1_S1600000x128_1_0_n_n_0_1_1128 (mulf h (val_main_v46 (F := Ideal) x1)) (val_main_v53 (F := Ideal) x1)))
    (val_main_v59 (F := Ideal) x2)

/-! ## The reference's stages are these layers -/

section Stages

variable (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S3x128x128, .f32⟩ : BufTy).Contents (Elt Ideal)) (x6 : (⟨S3x128, .f32⟩ : BufTy).Contents (Elt Ideal)) (x7 x8 x9 x10 : (⟨S4x128, .f32⟩ : BufTy).Contents (Elt Ideal)) (x11 : (⟨S128x47, .f32⟩ : BufTy).Contents (Elt Ideal)) (x12 : (⟨S47, .f32⟩ : BufTy).Contents (Elt Ideal))

theorem stage0 : val_main_v40 (F := Ideal) x0 x3 x4 x7 x8 x9 x10
    = hostHidden x0 x3 x4 (val_main_v18 x7) (val_main_v20 x8) (val_main_v22 x9) (val_main_v24 x10) := rfl

theorem agg1 : val_main_v60 (F := Ideal) x0 x1 x2 x3 x4 x7 x8 x9 x10
    = aggregate (val_main_v40 x0 x3 x4 x7 x8 x9 x10) x1 x2 := rfl

theorem stage1 : val_main_v88 (F := Ideal) x0 x1 x2 x3 x4 x5 x6 x7 x8 x9 x10
    = hostHidden (val_main_v60 x0 x1 x2 x3 x4 x7 x8 x9 x10) (val_main_v42 x5) (val_main_v44 x6) (val_main_v66 x7) (val_main_v68 x8)
        (val_main_v70 x9) (val_main_v72 x10) := rfl

theorem agg2 : val_main_v108 (F := Ideal) x0 x1 x2 x3 x4 x5 x6 x7 x8 x9 x10 = aggregate (val_main_v88 x0 x1 x2 x3 x4 x5 x6 x7 x8 x9 x10) x1 x2 := rfl

theorem stage2 : val_main_v136 (F := Ideal) x0 x1 x2 x3 x4 x5 x6 x7 x8 x9 x10
    = hostHidden (val_main_v108 x0 x1 x2 x3 x4 x5 x6 x7 x8 x9 x10) (val_main_v90 x5) (val_main_v92 x6) (val_main_v114 x7) (val_main_v116 x8)
        (val_main_v118 x9) (val_main_v120 x10) := rfl

theorem agg3 : val_main_v156 (F := Ideal) x0 x1 x2 x3 x4 x5 x6 x7 x8 x9 x10 = aggregate (val_main_v136 x0 x1 x2 x3 x4 x5 x6 x7 x8 x9 x10) x1 x2 := rfl

theorem stage3 : val_main_v184 (F := Ideal) x0 x1 x2 x3 x4 x5 x6 x7 x8 x9 x10
    = hostHidden (val_main_v156 x0 x1 x2 x3 x4 x5 x6 x7 x8 x9 x10) (val_main_v138 x5) (val_main_v140 x6) (val_main_v162 x7) (val_main_v164 x8)
        (val_main_v166 x9) (val_main_v168 x10) := rfl

theorem stage4 : val_main_v188 (F := Ideal) x0 x1 x2 x3 x4 x5 x6 x7 x8 x9 x10 x11 x12 = hostScores (val_main_v184 x0 x1 x2 x3 x4 x5 x6 x7 x8 x9 x10) x11 x12 := rfl

/-- The whole network as the layer formulas of the argument arrays: the input layer, three rounds of neighbour
    aggregation followed by a hidden layer on that round's slice of the stacked weights and parameters, and the
    output layer. -/
def net : FVec Ideal S100000x47 .f32 :=
  Gcn.scores
    (Gcn.hidden (aggregate
      (Gcn.hidden (aggregate
        (Gcn.hidden (aggregate
          (Gcn.hidden x0 x3 (Gcn.vec x4) (Gcn.vec (val_main_v18 x7)) (Gcn.vec (val_main_v20 x8)) (Gcn.vec (val_main_v22 x9)) (Gcn.vec (val_main_v24 x10)))
          x1 x2)
          (val_main_v42 x5) (Gcn.vec (val_main_v44 x6)) (Gcn.vec (val_main_v66 x7)) (Gcn.vec (val_main_v68 x8)) (Gcn.vec (val_main_v70 x9)) (Gcn.vec (val_main_v72 x10)))
        x1 x2)
        (val_main_v90 x5) (Gcn.vec (val_main_v92 x6)) (Gcn.vec (val_main_v114 x7)) (Gcn.vec (val_main_v116 x8)) (Gcn.vec (val_main_v118 x9)) (Gcn.vec (val_main_v120 x10)))
      x1 x2)
      (val_main_v138 x5) (Gcn.vec (val_main_v140 x6)) (Gcn.vec (val_main_v162 x7)) (Gcn.vec (val_main_v164 x8)) (Gcn.vec (val_main_v166 x9)) (Gcn.vec (val_main_v168 x10)))
    x11 (Gcn.vec x12)

/-- The reference's result is the network of the arguments. -/
theorem result_eq : val_main_v188 (F := Ideal) x0 x1 x2 x3 x4 x5 x6 x7 x8 x9 x10 x11 x12 = net x0 x1 x2 x3 x4 x5 x6 x7 x8 x9 x10 x11 x12 := by
  rw [stage4, hostScores_eq, stage3, hostHidden_eq, agg3, stage2, hostHidden_eq, agg2, stage1, hostHidden_eq, agg1, stage0,
    hostHidden_eq]
  rfl

end Stages

end Cert.ReferenceIdeal.Layers

end
-- ==== Proof.KernelNet.lean ====
/-
  The network program's result array as the network of its arguments. The run's chain of main-memory contents is walked
  from the launch: the edge arrays, the stacked weights and parameters and the two degree factors are never written after
  they are made, so every later stretch and kernel finds them as the first stretch left them; each kernel's output array is
  its layer of the arrays it is given (the five layer modules); each host stretch between two kernels cuts that round's slice
  of the stacked parameters, which the reference cuts in the same way, and applies the neighbour aggregation, which is the
  reference's own aggregation applied to an equal array. A one-row parameter block is the reference's 128-vector with a
  unit axis in front, so reading its only row is reading the vector.
-/
import proofs.«175036_j91216515432582_1_alg».proof.Proof.Gen.KernelIdeal.Frame
import proofs.«175036_j91216515432582_1_alg».proof.Proof.Layer0
import proofs.«175036_j91216515432582_1_alg».proof.Proof.Layer1
import proofs.«175036_j91216515432582_1_alg».proof.Proof.Layer2
import proofs.«175036_j91216515432582_1_alg».proof.Proof.Layer3
import proofs.«175036_j91216515432582_1_alg».proof.Proof.Layer4
import proofs.«175036_j91216515432582_1_alg».proof.Proof.RefLayers
import Idealize.ShloMosaic.Lib.StableHlo.Run
import Idealize.ShloMosaic.Lib.ValueLayout

set_option maxRecDepth 16384

noncomputable section

namespace Cert.KernelIdeal.Net

open Cert.KernelIdeal Cert.KernelIdeal.Gen Idealize.ShloMosaic Idealize.ShloMosaic.TcCoe Idealize.ShloMosaic.StableHlo
open Idealize.ShloMosaic.ValueIdx Idealize.SL.Sem
open Cert.ReferenceIdeal.Read (val_main_v9 val_main_v12 val_main_v18 val_main_v20 val_main_v22 val_main_v24 val_main_v42 val_main_v44
  val_main_v66 val_main_v68 val_main_v70 val_main_v72 val_main_v90 val_main_v92 val_main_v114 val_main_v116 val_main_v118 val_main_v120
  val_main_v138 val_main_v140 val_main_v162 val_main_v164 val_main_v166 val_main_v168)
open Cert.ReferenceIdeal.Layers (aggregate net)

variable (m : (ℓ : Loc nD τ sig) → Buf (Elt Ideal) ℓ) (ρ : Dev nD → PrngReg)

/-! ## What is carried unchanged through the run -/

/-- The argument arrays that host stretches after the first still read. -/
abbrev keptArgs : Finset (Ref sig .tc) :=
  {main_arg1, main_arg2, main_arg5, main_arg6, main_arg7, main_arg8, main_arg9, main_arg10, main_arg11, main_arg12}

/-- Those and the two degree-factor arrays the first stretch makes. -/
abbrev kept : Finset (Ref sig .tc) :=
  {main_arg1, main_arg2, main_arg5, main_arg6, main_arg7, main_arg8, main_arg9, main_arg10, main_arg11, main_arg12, main_v9, main_v12}

theorem mem_kept {b : Ref sig .tc} (hb : b ∈ keptArgs) : b ∈ kept :=
  (by decide : ∀ b ∈ keptArgs, b ∈ kept) b hb

/-- Host stretch 0 writes none of the carried arrays. -/
theorem host0_keeps (c : Dev nD) (b : Ref sig .tc) (hb : b ∈ keptArgs) :
    W1 m ρ c (Proc.devRef .tc b) = W0 m ρ c (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide))))

/-- Kernel 0 has none of the carried arrays among its windows' arrays. -/
theorem kernel0_keeps (c : Dev nD) (b : Ref sig .tc) (hb : b ∈ kept) :
    W2 m ρ c (Proc.devRef .tc b) = W1 m ρ c (Proc.devRef .tc b) :=
  W2_of_ne m ρ c b (fun w => (by decide : ∀ b ∈ kept, ∀ w : Fin 8, Pipeline.arrRef spec0 w ≠ b) b hb w)

/-- Host stretch 1 writes none of the carried arrays. -/
theorem host1_keeps (c : Dev nD) (b : Ref sig .tc) (hb : b ∈ kept) :
    W3 m ρ c (Proc.devRef .tc b) = W2 m ρ c (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide))))

/-- Kernel 1 has none of the carried arrays among its windows' arrays. -/
theorem kernel1_keeps (c : Dev nD) (b : Ref sig .tc) (hb : b ∈ kept) :
    W4 m ρ c (Proc.devRef .tc b) = W3 m ρ c (Proc.devRef .tc b) :=
  W4_of_ne m ρ c b (fun w => (by decide : ∀ b ∈ kept, ∀ w : Fin 8, Pipeline.arrRef spec1 w ≠ b) b hb w)

/-- Host stretch 2 writes none of the carried arrays. -/
theorem host2_keeps (c : Dev nD) (b : Ref sig .tc) (hb : b ∈ kept) :
    W5 m ρ c (Proc.devRef .tc b) = W4 m ρ c (Proc.devRef .tc b) :=
  StableHlo.after_of_forall_not_mem (b := Proc.devRef .tc b) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide))))

/-- Kernel 2 has none of the carried arrays among its windows' arrays. -/
theorem kernel2_keeps (c : Dev nD) (b : Ref sig .tc) (hb : b ∈ kept) :
    W6 m ρ c (Proc.devRef .tc b) = W5 m ρ c (Proc.devRef .tc b) :=
  W6_of_ne m ρ c b (fun w => (by decide : ∀ b ∈ kept, ∀ w : Fin 8, Pipeline.arrRef spec2 w ≠ b) b hb w)

/-- Host stretch 3 writes none of the carried arrays. -/
theorem host3_keeps (c : Dev nD) (b : Ref sig .tc) (hb : b ∈ kept) :
    W7 m ρ c (Proc.devRef .tc b) = W6 m ρ c (Proc.devRef .tc b) :=
  StableHlo.after_of_forall_not_mem (b := Proc.devRef .tc b) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide))))

/-- Kernel 3 has none of the carried arrays among its windows' arrays. -/
theorem kernel3_keeps (c : Dev nD) (b : Ref sig .tc) (hb : b ∈ kept) :
    W8 m ρ c (Proc.devRef .tc b) = W7 m ρ c (Proc.devRef .tc b) :=
  W8_of_ne m ρ c b (fun w => (by decide : ∀ b ∈ kept, ∀ w : Fin 8, Pipeline.arrRef spec3 w ≠ b) b hb w)

/-- Host stretch 4 writes none of the carried arrays. -/
theorem host4_keeps (c : Dev nD) (b : Ref sig .tc) (hb : b ∈ kept) :
    W9 m ρ c (Proc.devRef .tc b) = W8 m ρ c (Proc.devRef .tc b) :=
  StableHlo.after_of_forall_not_mem (b := Proc.devRef .tc b) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem hb (by decide))))

theorem at2 (c : Dev nD) (b : Ref sig .tc) (hb : b ∈ kept) : W2 m ρ c (Proc.devRef .tc b) = W1 m ρ c (Proc.devRef .tc b) :=
  kernel0_keeps m ρ c b hb
theorem at4 (c : Dev nD) (b : Ref sig .tc) (hb : b ∈ kept) : W4 m ρ c (Proc.devRef .tc b) = W1 m ρ c (Proc.devRef .tc b) :=
  (kernel1_keeps m ρ c b hb).trans ((host1_keeps m ρ c b hb).trans (at2 m ρ c b hb))
theorem at6 (c : Dev nD) (b : Ref sig .tc) (hb : b ∈ kept) : W6 m ρ c (Proc.devRef .tc b) = W1 m ρ c (Proc.devRef .tc b) :=
  (kernel2_keeps m ρ c b hb).trans ((host2_keeps m ρ c b hb).trans (at4 m ρ c b hb))
theorem at8 (c : Dev nD) (b : Ref sig .tc) (hb : b ∈ kept) : W8 m ρ c (Proc.devRef .tc b) = W1 m ρ c (Proc.devRef .tc b) :=
  (kernel3_keeps m ρ c b hb).trans ((host3_keeps m ρ c b hb).trans (at6 m ρ c b hb))
theorem at9 (c : Dev nD) (b : Ref sig .tc) (hb : b ∈ kept) : W9 m ρ c (Proc.devRef .tc b) = W1 m ρ c (Proc.devRef .tc b) :=
  (host4_keeps m ρ c b hb).trans (at8 m ρ c b hb)

/-- A carried argument array after the first stretch is as launched. -/
theorem argAt1 (c : Dev nD) (b : Ref sig .tc) (hb : b ∈ keptArgs) :
    W1 m ρ c (Proc.devRef .tc b) = m ((c : Thread nD τ).loc b) :=
  host0_keeps m ρ c b hb
theorem argAt2 (c : Dev nD) (b : Ref sig .tc) (hb : b ∈ keptArgs) : W2 m ρ c (Proc.devRef .tc b) = m ((c : Thread nD τ).loc b) :=
  (at2 m ρ c b (mem_kept hb)).trans (argAt1 m ρ c b hb)
theorem argAt4 (c : Dev nD) (b : Ref sig .tc) (hb : b ∈ keptArgs) : W4 m ρ c (Proc.devRef .tc b) = m ((c : Thread nD τ).loc b) :=
  (at4 m ρ c b (mem_kept hb)).trans (argAt1 m ρ c b hb)
theorem argAt6 (c : Dev nD) (b : Ref sig .tc) (hb : b ∈ keptArgs) : W6 m ρ c (Proc.devRef .tc b) = m ((c : Thread nD τ).loc b) :=
  (at6 m ρ c b (mem_kept hb)).trans (argAt1 m ρ c b hb)
theorem argAt8 (c : Dev nD) (b : Ref sig .tc) (hb : b ∈ keptArgs) : W8 m ρ c (Proc.devRef .tc b) = m ((c : Thread nD τ).loc b) :=
  (at8 m ρ c b (mem_kept hb)).trans (argAt1 m ρ c b hb)
theorem argAt9 (c : Dev nD) (b : Ref sig .tc) (hb : b ∈ keptArgs) : W9 m ρ c (Proc.devRef .tc b) = m ((c : Thread nD τ).loc b) :=
  (at9 m ρ c b (mem_kept hb)).trans (argAt1 m ρ c b hb)

/-- The source-degree factor the first stretch makes is the reference's, of the same edge array. -/
theorem srcFactorAt1 (c : Dev nD) : W1 m ρ c (Proc.devRef .tc main_v9) = val_main_v9 (m ((c : Thread nD τ).loc main_arg1)) := by
  show StableHlo.after hostOps0 (W0 m ρ c) (Proc.devRef .tc main_v9) = _
  after_results_simp
  rfl
/-- The target-degree factor likewise. -/
theorem dstFactorAt1 (c : Dev nD) : W1 m ρ c (Proc.devRef .tc main_v12) = val_main_v12 (m ((c : Thread nD τ).loc main_arg2)) := by
  show StableHlo.after hostOps0 (W0 m ρ c) (Proc.devRef .tc main_v12) = _
  after_results_simp
  rfl
theorem srcFactorAt2 (c : Dev nD) : W2 m ρ c (Proc.devRef .tc main_v9) = val_main_v9 (m ((c : Thread nD τ).loc main_arg1)) :=
  (at2 m ρ c main_v9 (by decide)).trans (srcFactorAt1 m ρ c)
theorem dstFactorAt2 (c : Dev nD) : W2 m ρ c (Proc.devRef .tc main_v12) = val_main_v12 (m ((c : Thread nD τ).loc main_arg2)) :=
  (at2 m ρ c main_v12 (by decide)).trans (dstFactorAt1 m ρ c)
theorem srcFactorAt4 (c : Dev nD) : W4 m ρ c (Proc.devRef .tc main_v9) = val_main_v9 (m ((c : Thread nD τ).loc main_arg1)) :=
  (at4 m ρ c main_v9 (by decide)).trans (srcFactorAt1 m ρ c)
theorem dstFactorAt4 (c : Dev nD) : W4 m ρ c (Proc.devRef .tc main_v12) = val_main_v12 (m ((c : Thread nD τ).loc main_arg2)) :=
  (at4 m ρ c main_v12 (by decide)).trans (dstFactorAt1 m ρ c)
theorem srcFactorAt6 (c : Dev nD) : W6 m ρ c (Proc.devRef .tc main_v9) = val_main_v9 (m ((c : Thread nD τ).loc main_arg1)) :=
  (at6 m ρ c main_v9 (by decide)).trans (srcFactorAt1 m ρ c)
theorem dstFactorAt6 (c : Dev nD) : W6 m ρ c (Proc.devRef .tc main_v12) = val_main_v12 (m ((c : Thread nD τ).loc main_arg2)) :=
  (at6 m ρ c main_v12 (by decide)).trans (dstFactorAt1 m ρ c)

/-! ## The kernels' output arrays, one after the other -/

/-- A hidden layer of equal arrays is equal. -/
theorem hidden_congr {x x' : (⟨2, ![100000, 128]⟩ : Shape).Idx → EReal} {w w' : (⟨2, ![128, 128]⟩ : Shape).Idx → EReal}
    {b b' g g' bt bt' mu mu' va va' : (⟨2, ![1, 128]⟩ : Shape).Idx → EReal}
    (hx : x = x') (hw : w = w') (hb : b = b') (hg : g = g') (hbt : bt = bt') (hmu : mu = mu') (hva : va = va') :
    Gcn.hidden x w (fun q => b (ix2 (0 : Fin 1) q)) (fun q => g (ix2 (0 : Fin 1) q)) (fun q => bt (ix2 (0 : Fin 1) q))
        (fun q => mu (ix2 (0 : Fin 1) q)) (fun q => va (ix2 (0 : Fin 1) q))
      = Gcn.hidden x' w' (fun q => b' (ix2 (0 : Fin 1) q)) (fun q => g' (ix2 (0 : Fin 1) q)) (fun q => bt' (ix2 (0 : Fin 1) q))
        (fun q => mu' (ix2 (0 : Fin 1) q)) (fun q => va' (ix2 (0 : Fin 1) q)) := by
  subst hx hw hb hg hbt hmu hva; rfl

/-- The output layer of equal arrays is equal. -/
theorem scores_congr {x x' : (⟨2, ![100000, 128]⟩ : Shape).Idx → EReal} {w w' : (⟨2, ![128, 47]⟩ : Shape).Idx → EReal}
    {b b' : (⟨2, ![1, 47]⟩ : Shape).Idx → EReal} (hx : x = x') (hw : w = w') (hb : b = b') :
    Gcn.scores x w (fun q => b (ix2 (0 : Fin 1) q)) = Gcn.scores x' w' (fun q => b' (ix2 (0 : Fin 1) q)) := by
  subst hx hw hb; rfl

/-- After the input layer's kernel: its output array is the input layer of the argument arrays. -/
theorem value0 (c : Dev nD) :
    W2 m ρ c (Proc.devRef .tc main_v26)
      = Gcn.hidden (m ((c : Thread nD τ).loc main_arg0)) (m ((c : Thread nD τ).loc main_arg3)) (Gcn.vec (m ((c : Thread nD τ).loc main_arg4)))
          (Gcn.vec (val_main_v18 (m ((c : Thread nD τ).loc main_arg7)))) (Gcn.vec (val_main_v20 (m ((c : Thread nD τ).loc main_arg8)))) (Gcn.vec (val_main_v22 (m ((c : Thread nD τ).loc main_arg9)))) (Gcn.vec (val_main_v24 (m ((c : Thread nD τ).loc main_arg10)))) := by
  refine (W2_arr m ρ c 7).trans ((Layer0.final (V1 m ρ) c).trans ?_)
  unfold Layer0.whole
  have hx : V1 m ρ c main_arg0 = (m ((c : Thread nD τ).loc main_arg0)) := by
    show StableHlo.after hostOps0 (W0 m ρ c) (Proc.devRef .tc main_arg0) = _
    after_results_simp <;> rfl
  have hw : V1 m ρ c main_arg3 = (m ((c : Thread nD τ).loc main_arg3)) := by
    show StableHlo.after hostOps0 (W0 m ρ c) (Proc.devRef .tc main_arg3) = _
    after_results_simp <;> rfl
  have hb : V1 m ρ c main_v21 = shapeCast S1x128 (m ((c : Thread nD τ).loc main_arg4)) shapeCasts_S128_S1x128 := by
    show StableHlo.after hostOps0 (W0 m ρ c) (Proc.devRef .tc main_v21) = _
    after_results_simp
    rfl
  have hg : V1 m ρ c main_v22 = shapeCast S1x128 (val_main_v18 (m ((c : Thread nD τ).loc main_arg7))) shapeCasts_S128_S1x128 := by
    show StableHlo.after hostOps0 (W0 m ρ c) (Proc.devRef .tc main_v22) = _
    after_results_simp
    rfl
  have hbt : V1 m ρ c main_v23 = shapeCast S1x128 (val_main_v20 (m ((c : Thread nD τ).loc main_arg8))) shapeCasts_S128_S1x128 := by
    show StableHlo.after hostOps0 (W0 m ρ c) (Proc.devRef .tc main_v23) = _
    after_results_simp
    rfl
  have hmu : V1 m ρ c main_v24 = shapeCast S1x128 (val_main_v22 (m ((c : Thread nD τ).loc main_arg9))) shapeCasts_S128_S1x128 := by
    show StableHlo.after hostOps0 (W0 m ρ c) (Proc.devRef .tc main_v24) = _
    after_results_simp
    rfl
  have hva : V1 m ρ c main_v25 = shapeCast S1x128 (val_main_v24 (m ((c : Thread nD τ).loc main_arg10))) shapeCasts_S128_S1x128 := by
    show StableHlo.after hostOps0 (W0 m ρ c) (Proc.devRef .tc main_v25) = _
    after_results_simp
    rfl
  refine (hidden_congr hx hw hb hg hbt hmu hva).trans ?_
  unfold Gcn.vec
  simp only [shapeCast_a_1a_apply]

/-- After kernel 1: its output array is the hidden layer of the aggregated previous output with round 1's slice of the
    stacked parameters. -/
theorem value1 (c : Dev nD) (H : FVec Ideal S100000x128 .f32) (hH : W2 m ρ c (Proc.devRef .tc main_v26) = H) :
    W4 m ρ c (Proc.devRef .tc main_v60)
      = Gcn.hidden (aggregate H (m ((c : Thread nD τ).loc main_arg1)) (m ((c : Thread nD τ).loc main_arg2))) (val_main_v42 (m ((c : Thread nD τ).loc main_arg5))) (Gcn.vec (val_main_v44 (m ((c : Thread nD τ).loc main_arg6))))
          (Gcn.vec (val_main_v66 (m ((c : Thread nD τ).loc main_arg7)))) (Gcn.vec (val_main_v68 (m ((c : Thread nD τ).loc main_arg8)))) (Gcn.vec (val_main_v70 (m ((c : Thread nD τ).loc main_arg9)))) (Gcn.vec (val_main_v72 (m ((c : Thread nD τ).loc main_arg10)))) := by
  refine (W4_arr m ρ c 7).trans ((Layer1.final (V3 m ρ) c).trans ?_)
  unfold Layer1.whole
  have hx : V3 m ρ c main_v42 = aggregate H (m ((c : Thread nD τ).loc main_arg1)) (m ((c : Thread nD τ).loc main_arg2)) := by
    show StableHlo.after hostOps1 (W2 m ρ c) (Proc.devRef .tc main_v42) = _
    after_results_simp
    rw [hH, argAt2 m ρ c main_arg1 (by decide), argAt2 m ρ c main_arg2 (by decide), srcFactorAt2 m ρ c, dstFactorAt2 m ρ c]
    rfl
  have hw : V3 m ρ c main_v44 = val_main_v42 (m ((c : Thread nD τ).loc main_arg5)) := by
    show StableHlo.after hostOps1 (W2 m ρ c) (Proc.devRef .tc main_v44) = _
    after_results_simp
    rw [argAt2 m ρ c main_arg5 (by decide)]
    rfl
  have hb : V3 m ρ c main_v55 = shapeCast S1x128 (val_main_v44 (m ((c : Thread nD τ).loc main_arg6))) shapeCasts_S128_S1x128 := by
    show StableHlo.after hostOps1 (W2 m ρ c) (Proc.devRef .tc main_v55) = _
    after_results_simp
    rw [argAt2 m ρ c main_arg6 (by decide)]
    rfl
  have hg : V3 m ρ c main_v56 = shapeCast S1x128 (val_main_v66 (m ((c : Thread nD τ).loc main_arg7))) shapeCasts_S128_S1x128 := by
    show StableHlo.after hostOps1 (W2 m ρ c) (Proc.devRef .tc main_v56) = _
    after_results_simp
    rw [argAt2 m ρ c main_arg7 (by decide)]
    rfl
  have hbt : V3 m ρ c main_v57 = shapeCast S1x128 (val_main_v68 (m ((c : Thread nD τ).loc main_arg8))) shapeCasts_S128_S1x128 := by
    show StableHlo.after hostOps1 (W2 m ρ c) (Proc.devRef .tc main_v57) = _
    after_results_simp
    rw [argAt2 m ρ c main_arg8 (by decide)]
    rfl
  have hmu : V3 m ρ c main_v58 = shapeCast S1x128 (val_main_v70 (m ((c : Thread nD τ).loc main_arg9))) shapeCasts_S128_S1x128 := by
    show StableHlo.after hostOps1 (W2 m ρ c) (Proc.devRef .tc main_v58) = _
    after_results_simp
    rw [argAt2 m ρ c main_arg9 (by decide)]
    rfl
  have hva : V3 m ρ c main_v59 = shapeCast S1x128 (val_main_v72 (m ((c : Thread nD τ).loc main_arg10))) shapeCasts_S128_S1x128 := by
    show StableHlo.after hostOps1 (W2 m ρ c) (Proc.devRef .tc main_v59) = _
    after_results_simp
    rw [argAt2 m ρ c main_arg10 (by decide)]
    rfl
  refine (hidden_congr hx hw hb hg hbt hmu hva).trans ?_
  unfold Gcn.vec
  simp only [shapeCast_a_1a_apply]

/-- After kernel 2: its output array is the hidden layer of the aggregated previous output with round 2's slice of the
    stacked parameters. -/
theorem value2 (c : Dev nD) (H : FVec Ideal S100000x128 .f32) (hH : W4 m ρ c (Proc.devRef .tc main_v60) = H) :
    W6 m ρ c (Proc.devRef .tc main_v94)
      = Gcn.hidden (aggregate H (m ((c : Thread nD τ).loc main_arg1)) (m ((c : Thread nD τ).loc main_arg2))) (val_main_v90 (m ((c : Thread nD τ).loc main_arg5))) (Gcn.vec (val_main_v92 (m ((c : Thread nD τ).loc main_arg6))))
          (Gcn.vec (val_main_v114 (m ((c : Thread nD τ).loc main_arg7)))) (Gcn.vec (val_main_v116 (m ((c : Thread nD τ).loc main_arg8)))) (Gcn.vec (val_main_v118 (m ((c : Thread nD τ).loc main_arg9)))) (Gcn.vec (val_main_v120 (m ((c : Thread nD τ).loc main_arg10)))) := by
  refine (W6_arr m ρ c 7).trans ((Layer2.final (V5 m ρ) c).trans ?_)
  unfold Layer2.whole
  have hx : V5 m ρ c main_v76 = aggregate H (m ((c : Thread nD τ).loc main_arg1)) (m ((c : Thread nD τ).loc main_arg2)) := by
    show StableHlo.after hostOps2 (W4 m ρ c) (Proc.devRef .tc main_v76) = _
    after_results_simp
    rw [hH, argAt4 m ρ c main_arg1 (by decide), argAt4 m ρ c main_arg2 (by decide), srcFactorAt4 m ρ c, dstFactorAt4 m ρ c]
    rfl
  have hw : V5 m ρ c main_v78 = val_main_v90 (m ((c : Thread nD τ).loc main_arg5)) := by
    show StableHlo.after hostOps2 (W4 m ρ c) (Proc.devRef .tc main_v78) = _
    after_results_simp
    rw [argAt4 m ρ c main_arg5 (by decide)]
    rfl
  have hb : V5 m ρ c main_v89 = shapeCast S1x128 (val_main_v92 (m ((c : Thread nD τ).loc main_arg6))) shapeCasts_S128_S1x128 := by
    show StableHlo.after hostOps2 (W4 m ρ c) (Proc.devRef .tc main_v89) = _
    after_results_simp
    rw [argAt4 m ρ c main_arg6 (by decide)]
    rfl
  have hg : V5 m ρ c main_v90 = shapeCast S1x128 (val_main_v114 (m ((c : Thread nD τ).loc main_arg7))) shapeCasts_S128_S1x128 := by
    show StableHlo.after hostOps2 (W4 m ρ c) (Proc.devRef .tc main_v90) = _
    after_results_simp
    rw [argAt4 m ρ c main_arg7 (by decide)]
    rfl
  have hbt : V5 m ρ c main_v91 = shapeCast S1x128 (val_main_v116 (m ((c : Thread nD τ).loc main_arg8))) shapeCasts_S128_S1x128 := by
    show StableHlo.after hostOps2 (W4 m ρ c) (Proc.devRef .tc main_v91) = _
    after_results_simp
    rw [argAt4 m ρ c main_arg8 (by decide)]
    rfl
  have hmu : V5 m ρ c main_v92 = shapeCast S1x128 (val_main_v118 (m ((c : Thread nD τ).loc main_arg9))) shapeCasts_S128_S1x128 := by
    show StableHlo.after hostOps2 (W4 m ρ c) (Proc.devRef .tc main_v92) = _
    after_results_simp
    rw [argAt4 m ρ c main_arg9 (by decide)]
    rfl
  have hva : V5 m ρ c main_v93 = shapeCast S1x128 (val_main_v120 (m ((c : Thread nD τ).loc main_arg10))) shapeCasts_S128_S1x128 := by
    show StableHlo.after hostOps2 (W4 m ρ c) (Proc.devRef .tc main_v93) = _
    after_results_simp
    rw [argAt4 m ρ c main_arg10 (by decide)]
    rfl
  refine (hidden_congr hx hw hb hg hbt hmu hva).trans ?_
  unfold Gcn.vec
  simp only [shapeCast_a_1a_apply]

/-- After kernel 3: its output array is the hidden layer of the aggregated previous output with round 3's slice of the
    stacked parameters. -/
theorem value3 (c : Dev nD) (H : FVec Ideal S100000x128 .f32) (hH : W6 m ρ c (Proc.devRef .tc main_v94) = H) :
    W8 m ρ c (Proc.devRef .tc main_v128)
      = Gcn.hidden (aggregate H (m ((c : Thread nD τ).loc main_arg1)) (m ((c : Thread nD τ).loc main_arg2))) (val_main_v138 (m ((c : Thread nD τ).loc main_arg5))) (Gcn.vec (val_main_v140 (m ((c : Thread nD τ).loc main_arg6))))
          (Gcn.vec (val_main_v162 (m ((c : Thread nD τ).loc main_arg7)))) (Gcn.vec (val_main_v164 (m ((c : Thread nD τ).loc main_arg8)))) (Gcn.vec (val_main_v166 (m ((c : Thread nD τ).loc main_arg9)))) (Gcn.vec (val_main_v168 (m ((c : Thread nD τ).loc main_arg10)))) := by
  refine (W8_arr m ρ c 7).trans ((Layer3.final (V7 m ρ) c).trans ?_)
  unfold Layer3.whole
  have hx : V7 m ρ c main_v110 = aggregate H (m ((c : Thread nD τ).loc main_arg1)) (m ((c : Thread nD τ).loc main_arg2)) := by
    show StableHlo.after hostOps3 (W6 m ρ c) (Proc.devRef .tc main_v110) = _
    after_results_simp
    rw [hH, argAt6 m ρ c main_arg1 (by decide), argAt6 m ρ c main_arg2 (by decide), srcFactorAt6 m ρ c, dstFactorAt6 m ρ c]
    rfl
  have hw : V7 m ρ c main_v112 = val_main_v138 (m ((c : Thread nD τ).loc main_arg5)) := by
    show StableHlo.after hostOps3 (W6 m ρ c) (Proc.devRef .tc main_v112) = _
    after_results_simp
    rw [argAt6 m ρ c main_arg5 (by decide)]
    rfl
  have hb : V7 m ρ c main_v123 = shapeCast S1x128 (val_main_v140 (m ((c : Thread nD τ).loc main_arg6))) shapeCasts_S128_S1x128 := by
    show StableHlo.after hostOps3 (W6 m ρ c) (Proc.devRef .tc main_v123) = _
    after_results_simp
    rw [argAt6 m ρ c main_arg6 (by decide)]
    rfl
  have hg : V7 m ρ c main_v124 = shapeCast S1x128 (val_main_v162 (m ((c : Thread nD τ).loc main_arg7))) shapeCasts_S128_S1x128 := by
    show StableHlo.after hostOps3 (W6 m ρ c) (Proc.devRef .tc main_v124) = _
    after_results_simp
    rw [argAt6 m ρ c main_arg7 (by decide)]
    rfl
  have hbt : V7 m ρ c main_v125 = shapeCast S1x128 (val_main_v164 (m ((c : Thread nD τ).loc main_arg8))) shapeCasts_S128_S1x128 := by
    show StableHlo.after hostOps3 (W6 m ρ c) (Proc.devRef .tc main_v125) = _
    after_results_simp
    rw [argAt6 m ρ c main_arg8 (by decide)]
    rfl
  have hmu : V7 m ρ c main_v126 = shapeCast S1x128 (val_main_v166 (m ((c : Thread nD τ).loc main_arg9))) shapeCasts_S128_S1x128 := by
    show StableHlo.after hostOps3 (W6 m ρ c) (Proc.devRef .tc main_v126) = _
    after_results_simp
    rw [argAt6 m ρ c main_arg9 (by decide)]
    rfl
  have hva : V7 m ρ c main_v127 = shapeCast S1x128 (val_main_v168 (m ((c : Thread nD τ).loc main_arg10))) shapeCasts_S128_S1x128 := by
    show StableHlo.after hostOps3 (W6 m ρ c) (Proc.devRef .tc main_v127) = _
    after_results_simp
    rw [argAt6 m ρ c main_arg10 (by decide)]
    rfl
  refine (hidden_congr hx hw hb hg hbt hmu hva).trans ?_
  unfold Gcn.vec
  simp only [shapeCast_a_1a_apply]

/-- After the output layer's kernel: the result array is the output layer of the last hidden layer's array. -/
theorem value4 (c : Dev nD) (H : FVec Ideal S100000x128 .f32) (hH : W8 m ρ c (Proc.devRef .tc main_v128) = H) :
    W10 m ρ c (Proc.devRef .tc main_v130) = Gcn.scores H (m ((c : Thread nD τ).loc main_arg11)) (Gcn.vec (m ((c : Thread nD τ).loc main_arg12))) := by
  refine (W10_arr m ρ c 3).trans ((Layer4.final (V9 m ρ) c).trans ?_)
  unfold Layer4.whole
  have hx : V9 m ρ c main_v128 = H := by
    show StableHlo.after hostOps4 (W8 m ρ c) (Proc.devRef .tc main_v128) = _
    after_results_simp
    exact hH
  have hw : V9 m ρ c main_arg11 = (m ((c : Thread nD τ).loc main_arg11)) := argAt9 m ρ c main_arg11 (by decide)
  have hb : V9 m ρ c main_v129 = shapeCast S1x47 (m ((c : Thread nD τ).loc main_arg12)) shapeCasts_S47_S1x47 := by
    show StableHlo.after hostOps4 (W8 m ρ c) (Proc.devRef .tc main_v129) = _
    after_results_simp
    rw [argAt8 m ρ c main_arg12 (by decide)]
    rfl
  refine (scores_congr hx hw hb).trans ?_
  unfold Gcn.vec
  simp only [shapeCast_a_1a_apply]

/-- The result array after the run is the network of the argument arrays. -/
theorem result (c : Dev nD) :
    W10 m ρ c (Proc.devRef .tc main_v130)
      = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  value4 m ρ c _ (value3 m ρ c _ (value2 m ρ c _ (value1 m ρ c _ (value0 m ρ c))))

end Cert.KernelIdeal.Net

end
-- ==== Proof.lean ====
/-
  The certificate of a three-round graph convolution network over 100000 nodes and 1600000 edges against its plain
  array-language reference.

  Both programs compute, for every node, an input layer relu(((x·W + b) − μ)·rsqrt(σ² + ε)·γ + β), then three rounds of
  "aggregate the neighbours' rows, scaled by the two degree factors, then apply a hidden layer of the same form with
  that round's weights", then an affine output layer. The kernel program runs each layer as a kernel over 25 row blocks
  of 4000 nodes, rounding the product's operands to bfloat16 on the way in — the identity on the extended reals — and
  leaves the aggregation to host operations; the reference runs everything as host operations. On the extended reals
  the two agree operation by operation, in the same order and grouping, so no arithmetic law and no finiteness of the
  inputs is needed: every layer kernel's output array is the layer formula of its input arrays, entry by entry, the
  reference's layer is the same formula entry by entry, and the aggregation between two layers is one and the same
  function applied to equal arrays.

  The kernel program's frames are the generated ones; its run with the result array named, the five layer kernels'
  arrays, the walk through the host stretches and the reference's layers are the modules imported below. Nothing was
  rewritten by the idealization, so that conjunct is trivial.
-/
import proofs.«175036_j91216515432582_1_alg».proof.Defs
import proofs.«175036_j91216515432582_1_alg».proof.Proof.Gen.Kernel
import proofs.«175036_j91216515432582_1_alg».proof.Proof.Gen.Kernel.Skeleton
import proofs.«175036_j91216515432582_1_alg».proof.Proof.Gen.Kernel.Launch
import proofs.«175036_j91216515432582_1_alg».proof.Proof.Gen.Kernel.Points
import proofs.«175036_j91216515432582_1_alg».proof.Proof.Gen.Kernel.Frame
import proofs.«175036_j91216515432582_1_alg».proof.Proof.Gen.KernelIdeal
import proofs.«175036_j91216515432582_1_alg».proof.Proof.Gen.KernelIdeal.Skeleton
import proofs.«175036_j91216515432582_1_alg».proof.Proof.Gen.KernelIdeal.Launch
import proofs.«175036_j91216515432582_1_alg».proof.Proof.Gen.KernelIdeal.Points
import proofs.«175036_j91216515432582_1_alg».proof.Proof.Gen.KernelIdeal.Frame
import proofs.«175036_j91216515432582_1_alg».proof.Proof.Gen.ReferenceIdeal
import proofs.«175036_j91216515432582_1_alg».proof.Proof.Gen.Pre_finite_inputs
import proofs.«175036_j91216515432582_1_alg».proof.Proof.Gen.ReferenceIdeal.Run
import proofs.«175036_j91216515432582_1_alg».proof.Proof.Gen.ReferenceIdeal.Read
import proofs.«175036_j91216515432582_1_alg».proof.Proof.KernelRun
import proofs.«175036_j91216515432582_1_alg».proof.Proof.KernelNet
import proofs.«175036_j91216515432582_1_alg».proof.Proof.RefLayers
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the network of the argument arrays, and the argument arrays agree. -/
theorem algebraic : Cert.algebraic_KernelIdeal_ReferenceIdeal := by
  intro m ρ m' ρ' _ hagree
  refine ⟨fun c => Cert.ReferenceIdeal.Layers.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Net.result m ρ c), (h c).2⟩) (Cert.KernelIdeal.RunValue.run m ρ)
  · refine (θ_run Cert.ReferenceIdeal.defs _ _).mono (fun _ h c => ⟨?_, (h c).2⟩)
      (Cert.ReferenceIdeal.Value.run (F := Ideal) m' ρ')
    obtain ⟨a0, a1, a2, a3, a4, a5, a6, a7, a8, a9, a10, a11, a12⟩ := hagree c
    rw [(h c).1, Cert.ReferenceIdeal.Read.val_main_v188_eq, Cert.ReferenceIdeal.Layers.result_eq,
      a0, a1, a2, a3, a4, a5, a6, a7, a8, a9, a10, a11, a12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
